-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S512x256 : Shape := ⟨2, ![512, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S10000x256 .f32) (main_arg1 : FVec F S10000x10000 .f32) (main_arg2 : FVec F S512x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S10000x256 : Shape := ⟨2, ![10000, 256]⟩
abbrev S10000x10000 : Shape := ⟨2, ![10000, 10000]⟩
abbrev S512x256 : Shape := ⟨2, ![512, 256]⟩
abbrev S2x5000x10000 : Shape := ⟨3, ![2, 5000, 10000]⟩
abbrev S2x5000x256 : Shape := ⟨3, ![2, 5000, 256]⟩
abbrev S1x200x10000 : Shape := ⟨3, ![1, 200, 10000]⟩
abbrev S2x200x256 : Shape := ⟨3, ![2, 200, 256]⟩
abbrev S256x256 : Shape := ⟨2, ![256, 256]⟩
abbrev S200x256 : Shape := ⟨2, ![200, 256]⟩
abbrev S200x10000 : Shape := ⟨2, ![200, 10000]⟩
abbrev S1x200x256 : Shape := ⟨3, ![1, 200, 256]⟩

abbrev nBuf : Space → Nat
  | .hbm => 6
  | .vmem => 9
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S512x256, .f32⟩
  | .hbm, ⟨3, _⟩ => ⟨S2x5000x10000, .f32⟩
  | .hbm, ⟨4, _⟩ => ⟨S2x5000x256, .f32⟩
  | .hbm, ⟨5, _⟩ => ⟨S10000x256, .f32⟩
  | .local _ .vmem, ⟨0, _⟩ => ⟨S1x200x10000, .f32⟩
  | .local _ .vmem, ⟨1, _⟩ => ⟨S1x200x10000, .f32⟩
  | .local _ .vmem, ⟨2, _⟩ => ⟨S1x200x10000, .f32⟩
  | .local _ .vmem, ⟨3, _⟩ => ⟨S1x200x10000, .f32⟩
  | .local _ .vmem, ⟨4, _⟩ => ⟨S10000x256, .f32⟩
  | .local _ .vmem, ⟨5, _⟩ => ⟨S512x256, .f32⟩
  | .local _ .vmem, ⟨6, _⟩ => ⟨S2x200x256, .f32⟩
  | .local _ .vmem, ⟨7, _⟩ => ⟨S2x200x256, .f32⟩
  | .local _ .vmem, ⟨8, _⟩ => ⟨S10000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c200_i32 : BitVec 32 := 200#32
  let v4 : BitVec 32 := Scalar.muli arg0 c200_i32
  let v5 : Index := Scalar.indexCast v4
  let c0_2 : Index := 0#32
  ![v5.toNat, 0]
def k0_off2 (i : grid0.Coords) : Fin 2 → Nat :=
  let c5000_i32 : BitVec 32 := 5000#32
  let arg0 : BitVec 32 := BitVec.ofNat 32 (i 0).val
  let c200_i32_12 : BitVec 32 := 200#32
  let v16 : BitVec 32 := Scalar.muli arg0 c200_i32_12
  let v17 : BitVec 32 := Scalar.addi c5000_i32 v16
  let v18 : Index := Scalar.indexCast v17
  let c0_13 : Index := 0#32
  ![v18.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x200x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S10000x10000_S2x5000x10000 : S10000x10000.ShapeCasts S2x5000x10000
  inb_S512x256_S256x256_256_0 : ∀ a, (![256, 0] : Fin 2 → Nat) a + S256x256.size a ≤ S512x256.size a
  h_S256x256 : 0 < S256x256.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S512x256_S256x256_0_0 : ∀ a, (![0, 0] : Fin 2 → Nat) a + S256x256.size a ≤ S512x256.size a
  h_S200x256 : 0 < S200x256.numel
  inb_S1x200x10000_S1x200x10000_0_0_0 : ∀ a, (![0, 0, 0] : Fin 3 → Nat) a + S1x200x10000.size a ≤ S1x200x10000.size a
  h_S1x200x10000 : 0 < S1x200x10000.numel
  shapeCasts_S1x200x10000_S200x10000 : S1x200x10000.ShapeCasts S200x10000
  inb_S2x200x256_S1x200x256_0_0_0 : ∀ a, (![0, 0, 0] : Fin 3 → Nat) a + S1x200x256.size a ≤ S2x200x256.size a
  h_S1x200x256 : 0 < S1x200x256.numel
  shapeCasts_S1x200x256_S200x256 : S1x200x256.ShapeCasts S200x256
  shapeCasts_S200x256_S1x200x256 : S200x256.ShapeCasts S1x200x256
  inb_S2x200x256_S1x200x256_1_0_0 : ∀ a, (![1, 0, 0] : Fin 3 → Nat) a + S1x200x256.size a ≤ S2x200x256.size a
  shapeCasts_S2x5000x256_S10000x256 : S2x5000x256.ShapeCasts S10000x256
  dot_S10000x256_S256x256_S10000x256_1_0_0_1_n_n_wf : DotDims.WF S10000x256 S256x256 S10000x256 [1] [0] [0] [1] [] []
  dot_S200x256_S256x256_S200x256_1_0_0_1_n_n_wf : DotDims.WF S200x256 S256x256 S200x256 [1] [0] [0] [1] [] []
  dot_S200x10000_S10000x256_S200x256_1_0_0_1_n_n_wf : DotDims.WF S200x10000 S10000x256 S200x256 [1] [0] [0] [1] [] []
  hrank0 : 0 < grid0.rank
  k0_off1_inb : ∀ i : grid0.Coords, ∀ a, (k0_off1 i) a + S200x256.size a ≤ S10000x256.size a
  k0_off2_inb : ∀ i : grid0.Coords, ∀ a, (k0_off2 i) a + S200x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x10000.size a ≤ S2x5000x10000.size a
  hwx0_0 : ∀ i : grid0.Coords, EltTy.bits .f32 = 32 ∨ (Rect.block (s := S2x5000x10000) S1x200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x10000.size a ≤ S2x5000x10000.size a
  hwx0_1 : ∀ i : grid0.Coords, EltTy.bits .f32 = 32 ∨ (Rect.block (s := S2x5000x10000) S1x200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S10000x256.size a
  hwx0_2 : ∀ i : grid0.Coords, EltTy.bits .f32 = 32 ∨ (Rect.block (s := S10000x256) S10000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x200x256.size a ≤ S2x5000x256.size a
  hwx0_4 : ∀ i : grid0.Coords, EltTy.bits .f32 = 32 ∨ (Rect.block (s := S2x5000x256) S2x200x256.size (cc0_transform_4 i) (hinb0_4 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_v0) S1x200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x200x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S512x256 : Shape := ⟨2, ![512, 256]⟩
abbrev S10000x512 : Shape := ⟨2, ![10000, 512]⟩

abbrev nBuf : Space → Nat
  | .hbm => 6
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S512x256, .f32⟩
  | .hbm, ⟨3, _⟩ => ⟨S10000x256, .f32⟩
  | .hbm, ⟨4, _⟩ => ⟨S10000x512, .f32⟩
  | .hbm, ⟨5, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  concatenates_S10000x256_S10000x256_S10000x512_d1 : Shape.Concatenates [S10000x256, S10000x256] S10000x512 1
  dot_S10000x10000_S10000x256_S10000x256_1_0_0_1_n_n_wf : DotDims.WF S10000x10000 S10000x256 S10000x256 [1] [0] [0] [1] [] []
  dot_S10000x512_S512x256_S10000x256_1_0_0_1_n_n_wf : DotDims.WF S10000x512 S512x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.K.RunA.lean ====
/-
  The kernel body run once per control case.

  The body of the fused layer kernel, at a grid point, reads four input buffers (two row bands of the adjacency,
  the whole feature matrix, the whole weight), one output buffer of two slabs, and a scratch that holds the
  projection P = x W2. At the first grid point it first fills the scratch with P (case A); at every other point it
  leaves the scratch as it found it (case B). In both cases it then stores, into slab 0 and slab 1 of the output
  buffer, the two bands  x[band] W1 + A[band] P.  Each case is run symbolically over the skeleton of memory
  operations; what the stores leave is found as a list of pieces.
-/
import proofs.«111192_g72069551227474_cont_9to1c4b_720_10_alg».proof.Proof.Gen.Kernel.Launch
import proofs.«111192_g72069551227474_cont_9to1c4b_720_10_alg».proof.Proof.Gen.Kernel.Skeleton
import proofs.«111192_g72069551227474_cont_9to1c4b_720_10_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch condition: is this the first grid point? -/

/-- The body's one conditional, over the grid coordinate: "the coordinate is zero". -/
abbrev cond0_0 (i : grid0.Coords) : Prop :=
  (Scalar.cmpi .ne (Scalar.extui (Scalar.cmpi .eq (BitVec.ofNat 32 (i 0).val) 0#32)) 0#32) = 1#1

/-- It holds at the first of the 25 points only. -/
theorem hcond0_0 : ∀ t : Fin cfg0.N, cond0_0 (grid0.coords t) ↔ t.val = 0 :=
  (by decide +kernel : ∀ t : Fin grid0.N, cond0_0 (grid0.coords t) ↔ t.val = 0)

/-! ## Case A: the first point -/

set_option maxHeartbeats 4000000 in
/-- At the first point: from the four inputs at their contents, the output buffer and the scratch at anything, the
    body runs to the inputs as they were, the output buffer with its pieces written (two slabs) and the scratch with
    its piece written (the projection). -/
noncomputable def kernelRun0_A (c : Dev nD) (i : grid0.Coords)
    (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole)
    (hc0 : cond0_0 i)
    (x1 : Vec F S1x200x10000 .f32) (x2 : Vec F S1x200x10000 .f32) (x3 : Vec F S10000x256 .f32) (x4 : Vec F S512x256 .f32) :
    Σ' (L5 : List (View.Piece (Elt F) S2x200x256 .f32)), { LS : List (View.Piece (Elt F) S10000x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc0__sage_kernel i arg1 harg1 arg2 harg2 arg3 harg3 arg4 harg4 arg5 harg5 arg6 harg6) K } := by
  refine ⟨?_, ?_, fun E K => ?run⟩
  case run =>
    simp only [cc0__sage_kernel_eq_skeleton]; unfold cc0__sage_kernel_skel
    simp only [k0_part1_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf1; obtain rfl := harg2.eq_unread hf2; obtain rfl := harg3.eq_unread hf3; obtain rfl := harg4.eq_unread hf4
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact HS

end Cert.Kernel.Sage

end
-- ==== Proof.K.RunB.lean ====
/-
  The kernel body at every grid point but the first (case B): the projection is already in the scratch, which the body
  only reads; the two output slabs are stored as at the first point.
-/
import proofs.«111192_g72069551227474_cont_9to1c4b_720_10_alg».proof.Proof.K.RunA

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a later point: from the four inputs and the scratch at their contents and the output buffer at anything, the
    body runs to the inputs and the scratch as they were and the output buffer with its pieces written (two slabs). -/
noncomputable def kernelRun0_B (c : Dev nD) (i : grid0.Coords)
    (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole)
    (hc0 : ¬cond0_0 i)
    (x1 : Vec F S1x200x10000 .f32) (x2 : Vec F S1x200x10000 .f32) (x3 : Vec F S10000x256 .f32) (x4 : Vec F S512x256 .f32) (xs : Vec F S10000x256 .f32) :
    { L5 : List (View.Piece (Elt F) S2x200x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d) ∗ owns (c : Thread nD τ) arg6 fullShare xs
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare xs) -∗ K ⟨⟩))
          ⊢ wp frame (wpE (defs₀ (F := F)) Variants.none c none) E (cc0__sage_kernel i arg1 harg1 arg2 harg2 arg3 harg3 arg4 harg4 arg5 harg5 arg6 harg6) K } := by
  refine ⟨?_, fun E K => ?run⟩
  case run =>
    simp only [cc0__sage_kernel_eq_skeleton]; unfold cc0__sage_kernel_skel
    simp only [k0_part1_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf1; obtain rfl := harg2.eq_unread hf2; obtain rfl := harg3.eq_unread hf3; obtain rfl := harg4.eq_unread hf4
    obtain rfl := harg6.eq_unread hfs
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact HS

end Cert.Kernel.Sage

end
-- ==== Proof.K.Data.lean ====
/-
  What the pipeline's buffers hold point by point: the proof data.

  The grid has 25 points. Point t stages row band t of the upper half of the adjacency (window 0) and row band t of its
  lower half (window 1) — both windows read the one reshaped adjacency array —, keeps the whole feature matrix (window 2)
  and the whole weight (window 3) staged from the first point on, and writes back a two-slab output block (window 4).
  The scratch is filled with the projection at the first point and keeps it for the rest of the run.
-/
import proofs.«111192_g72069551227474_cont_9to1c4b_720_10_alg».proof.Proof.K.RunB

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => m (c, b)
/-- and when the region is entered: the adjacency has been reshaped to two halves. -/
abbrev V (c : Dev nD) (b : Ref sig .tc) : Buf (Elt F) ((c : Thread nD τ).loc b) := StableHlo.after hostOps0 (V₀ m c) (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Every input window's current staging buffer holds its block at every point, fetched there or not: a window fetched
    only at the first point has not moved since. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, the scratch, and what each case leaves -/

abbrev ms0_0 (t : Fin cfg0.N) : Memref sig .tc .vmem S1x200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x200x256 .f32 := win0_4.stage (cfg0.slots t 4)
abbrev hs0_4 (t : Fin cfg0.N) : (ms0_4 t).IsWhole := hstage0_4 ((cfg0.slots t 4).cast nbuf0_4)
/-- The scratch operand: a whole scoped buffer of the kernel's own. -/
abbrev scM : Memref sig .tc .vmem S10000x256 .f32 := Memref.whole cc0_scratch0
/-- Views through which buffer contents are stated (the choice of buffer does not matter). -/
abbrev VO : View sig .tc .vmem S2x200x256 .f32 := (Memref.whole cc0_stg4_0 : Memref sig .tc .vmem S2x200x256 .f32).view
abbrev VS : View sig .tc .vmem S10000x256 .f32 := scM.view

/-- The first grid point. -/
abbrev t00 : Fin cfg0.N := ⟨0, by decide⟩

/-- The scoped rest of the region is the scratch, owned at some contents. -/
theorem scopedRest_scM (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- Case A's pieces for the output buffer tile it (two slabs), so they cover it. -/
theorem cover5_A (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : cond0_0 i) (x1 : Vec F S1x200x10000 .f32) (x2 : Vec F S1x200x10000 .f32) (x3 : Vec F S10000x256 .f32) (x4 : Vec F S512x256 .f32) (y : S2x200x256.Idx) :
    ∃ pc ∈ (kernelRun0_A c i arg1 harg1 arg2 harg2 arg3 harg3 arg4 harg4 arg5 harg5 arg6 harg6 hc0 x1 x2 x3 x4).1, y ∈ pc.1.set :=
  View.cover_of_tiledL (kernelRun0_A c i arg1 harg1 arg2 harg2 arg3 harg3 arg4 harg4 arg5 harg5 arg6 harg6 hc0 x1 x2 x3 x4).1 S1x200x256.size (by sl_kernel_rfl) y

/-- What case A leaves in the output buffer: its pieces read back. -/
def out5_A (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : cond0_0 i) (x1 : Vec F S1x200x10000 .f32) (x2 : Vec F S1x200x10000 .f32) (x3 : Vec F S10000x256 .f32) (x4 : Vec F S512x256 .f32) : Vec F S2x200x256 .f32 :=
  VO.read (Elt F) (VO.writes (Elt F) VO.junk (kernelRun0_A c i arg1 harg1 arg2 harg2 arg3 harg3 arg4 harg4 arg5 harg5 arg6 harg6 hc0 x1 x2 x3 x4).1)

/-- Case A's piece for the scratch covers it (one whole store). -/
theorem scover_A (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : cond0_0 i) (x1 : Vec F S1x200x10000 .f32) (x2 : Vec F S1x200x10000 .f32) (x3 : Vec F S10000x256 .f32) (x4 : Vec F S512x256 .f32) (y : S10000x256.Idx) :
    ∃ pc ∈ (kernelRun0_A c i arg1 harg1 arg2 harg2 arg3 harg3 arg4 harg4 arg5 harg5 arg6 harg6 hc0 x1 x2 x3 x4).2.1, y ∈ pc.1.set :=
  View.cover_of_tiledL (kernelRun0_A c i arg1 harg1 arg2 harg2 arg3 harg3 arg4 harg4 arg5 harg5 arg6 harg6 hc0 x1 x2 x3 x4).2.1 S10000x256.size (by sl_kernel_rfl) y

/-- What case A leaves in the scratch: its piece read back. -/
def sout_A (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : cond0_0 i) (x1 : Vec F S1x200x10000 .f32) (x2 : Vec F S1x200x10000 .f32) (x3 : Vec F S10000x256 .f32) (x4 : Vec F S512x256 .f32) : Vec F S10000x256 .f32 :=
  VS.read (Elt F) (VS.writes (Elt F) VS.junk (kernelRun0_A c i arg1 harg1 arg2 harg2 arg3 harg3 arg4 harg4 arg5 harg5 arg6 harg6 hc0 x1 x2 x3 x4).2.1)

/-- Case B's pieces for the output buffer tile it. -/
theorem cover5_B (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : ¬cond0_0 i) (x1 : Vec F S1x200x10000 .f32) (x2 : Vec F S1x200x10000 .f32) (x3 : Vec F S10000x256 .f32) (x4 : Vec F S512x256 .f32) (xs : Vec F S10000x256 .f32) (y : S2x200x256.Idx) :
    ∃ pc ∈ (kernelRun0_B c i arg1 harg1 arg2 harg2 arg3 harg3 arg4 harg4 arg5 harg5 arg6 harg6 hc0 x1 x2 x3 x4 xs).1, y ∈ pc.1.set :=
  View.cover_of_tiledL (kernelRun0_B c i arg1 harg1 arg2 harg2 arg3 harg3 arg4 harg4 arg5 harg5 arg6 harg6 hc0 x1 x2 x3 x4 xs).1 S1x200x256.size (by sl_kernel_rfl) y

/-- What case B leaves in the output buffer. -/
def out5_B (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : ¬cond0_0 i) (x1 : Vec F S1x200x10000 .f32) (x2 : Vec F S1x200x10000 .f32) (x3 : Vec F S10000x256 .f32) (x4 : Vec F S512x256 .f32) (xs : Vec F S10000x256 .f32) : Vec F S2x200x256 .f32 :=
  VO.read (Elt F) (VO.writes (Elt F) VO.junk (kernelRun0_B c i arg1 harg1 arg2 harg2 arg3 harg3 arg4 harg4 arg5 harg5 arg6 harg6 hc0 x1 x2 x3 x4 xs).1)

/-- The scratch from the first point on: what case A left there. -/
def scr (c : Dev nD) : Vec F S10000x256 .f32 :=
  sout_A c (grid0.coords t00) (ms0_0 t00) (hs0_0 t00) (ms0_1 t00) (hs0_1 t00) (ms0_2 t00) (hs0_2 t00) (ms0_3 t00) (hs0_3 t00) (ms0_4 t00) (hs0_4 t00) scM (Memref.isWhole_whole _) ((hcond0_0 t00).mpr rfl) (iblk m c 0 t00) (iblk m c 1 t00) (iblk m c 2 t00) (iblk m c 3 t00)

/-- What the output buffer holds after the body at point `t`. -/
def outAt (c : Dev nD) (t : Fin cfg0.N) : Vec F S2x200x256 .f32 :=
  if h : t.val = 0 then out5_A c (grid0.coords t) (ms0_0 t) (hs0_0 t) (ms0_1 t) (hs0_1 t) (ms0_2 t) (hs0_2 t) (ms0_3 t) (hs0_3 t) (ms0_4 t) (hs0_4 t) scM (Memref.isWhole_whole _) ((hcond0_0 t).mpr h) (iblk m c 0 t) (iblk m c 1 t) (iblk m c 2 t) (iblk m c 3 t)
  else out5_B c (grid0.coords t) (ms0_0 t) (hs0_0 t) (ms0_1 t) (hs0_1 t) (ms0_2 t) (hs0_2 t) (ms0_3 t) (hs0_3 t) (ms0_4 t) (hs0_4 t) scM (Memref.isWhole_whole _) (fun hc => h ((hcond0_0 t).mp hc)) (iblk m c 0 t) (iblk m c 1 t) (iblk m c 2 t) (iblk m c 3 t) (scr m c)

/-- The region invariant before position `n`: the scratch at anything before the first point, at the projection afterwards. -/
def PhiS (c : Dev nD) : ℕ → sProp 𝕄
  | 0 => iprop(∃ d, owns (c : Thread nD τ) scM fullShare d)
  | _ + 1 => owns (c : Thread nD τ) scM fullShare (scr m c)

/-! ## The pipeline's proof data -/

/-- The proof data of the one pipeline on core `c`: the arrays as the region finds them; after the body each input's
    buffer at its block and the output's at `outAt`; the scratch invariant; the reshaped adjacency shared between the two
    windows that read it, one half share each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Sage

end
-- ==== Proof.K.Body.lean ====
/-
  The body's obligation at every grid point, from the two case runs.
-/
import proofs.«111192_g72069551227474_cont_9to1c4b_720_10_alg».proof.Proof.K.Data

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The invariant before the first point, -/
theorem PhiS_zero (c : Dev nD) (n : ℕ) (h : n = 0) : PhiS m c n = iprop(∃ d, owns (c : Thread nD τ) scM fullShare d) := by
  subst h; rfl
/-- after any point, -/
theorem PhiS_succ (c : Dev nD) (n : ℕ) : PhiS m c (n + 1) = owns (c : Thread nD τ) scM fullShare (scr m c) := rfl
/-- and before a later one. -/
theorem PhiS_pos (c : Dev nD) (n : ℕ) (h : n ≠ 0) : PhiS m c n = owns (c : Thread nD τ) scM fullShare (scr m c) := by
  cases n with
  | zero => exact absurd rfl h
  | succ n => rfl

/-- The output buffer after the first point, -/
theorem outAt_zero (c : Dev nD) (t : Fin cfg0.N) (hz : t.val = 0) :
    outAt m c t = out5_A c (grid0.coords t) (ms0_0 t) (hs0_0 t) (ms0_1 t) (hs0_1 t) (ms0_2 t) (hs0_2 t) (ms0_3 t) (hs0_3 t) (ms0_4 t) (hs0_4 t) scM (Memref.isWhole_whole _) ((hcond0_0 t).mpr hz) (iblk m c 0 t) (iblk m c 1 t) (iblk m c 2 t) (iblk m c 3 t) := dif_pos hz
/-- and after a later one. -/
theorem outAt_pos (c : Dev nD) (t : Fin cfg0.N) (hz : ¬t.val = 0) :
    outAt m c t = out5_B c (grid0.coords t) (ms0_0 t) (hs0_0 t) (ms0_1 t) (hs0_1 t) (ms0_2 t) (hs0_2 t) (ms0_3 t) (hs0_3 t) (ms0_4 t) (hs0_4 t) scM (Memref.isWhole_whole _) (fun hc => hz ((hcond0_0 t).mp hc)) (iblk m c 0 t) (iblk m c 1 t) (iblk m c 2 t) (iblk m c 3 t) (scr m c) := dif_neg hz
/-- The projection is what the first point's run left in the scratch, whichever way the first point is spelt. -/
theorem scr_eq (c : Dev nD) (t : Fin cfg0.N) (hz : t.val = 0) :
    scr m c = sout_A c (grid0.coords t) (ms0_0 t) (hs0_0 t) (ms0_1 t) (hs0_1 t) (ms0_2 t) (hs0_2 t) (ms0_3 t) (hs0_3 t) (ms0_4 t) (hs0_4 t) scM (Memref.isWhole_whole _) ((hcond0_0 t).mpr hz) (iblk m c 0 t) (iblk m c 1 t) (iblk m c 2 t) (iblk m c 3 t) := by
  obtain rfl : t = t00 := Fin.ext hz
  rfl

set_option maxHeartbeats 4800000 in
/-- The body at the first point: the scratch is at anything and comes back holding the projection; the output buffer comes
    back with the two slabs stored. -/
theorem sound_body_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3, after0_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [PhiS_zero m c _ hz, PhiS_succ, outAt_zero m c t hz, scr_eq m c t hz]
  unfold out5_A sout_A
  iintro ⟨HS, Ho, ⟨%d0, H0⟩, ⟨%d1, H1⟩, ⟨%d2, H2⟩, ⟨%d3, H3⟩, ⟨%d4, H4⟩⟩
  iapply ((kernelRun0_A c (grid0.coords t) (ms0_0 t) (hs0_0 t) (ms0_1 t) (hs0_1 t) (ms0_2 t) (hs0_2 t) (ms0_3 t) (hs0_3 t) (ms0_4 t) (hs0_4 t) scM (Memref.isWhole_whole _) ((hcond0_0 t).mpr hz) (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS]
  · unfold owns; iexists _; isplitr
    swap; · iexact HS
    ipureintro; exact View.read_writes_of_cover _ _ _ _ _ (scover_A c _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover5_A c _ _ _ _ _ _ _ _ _ _ _ _ _ _ _ _ _ _)

set_option maxHeartbeats 4800000 in
/-- The body at a later point: the scratch holds the projection and comes back so; the output buffer comes back with the two
    slabs stored. -/
theorem sound_body_later (c : Dev nD) (t : Fin cfg0.N) (hz : ¬t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3, after0_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [PhiS_pos m c _ hz, PhiS_succ, outAt_pos m c t hz]
  unfold out5_B
  iintro ⟨HS, Ho, ⟨%d0, H0⟩, ⟨%d1, H1⟩, ⟨%d2, H2⟩, ⟨%d3, H3⟩, ⟨%d4, H4⟩⟩
  iapply ((kernelRun0_B c (grid0.coords t) (ms0_0 t) (hs0_0 t) (ms0_1 t) (hs0_1 t) (ms0_2 t) (hs0_2 t) (ms0_3 t) (hs0_3 t) (ms0_4 t) (hs0_4 t) scM (Memref.isWhole_whole _) (fun hc => hz ((hcond0_0 t).mp hc)) (iblk m c 0 t) (iblk m c 1 t) (iblk m c 2 t) (iblk m c 3 t) (scr m c)).2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS]; · iexact HS
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover5_B c _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_body_first m c t hz
  · exact sound_body_later m c t hz

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Sage

end
-- ==== Proof.K.Region.lean ====
/-
  The launch: @main as three segments — the reshape of the adjacency, the kernel region, the reshape of the result.

  The two adjacency windows read ONE array (the reshaped adjacency). At the region's entry its buffer, held whole, is
  split into two half shares, one per window; the windows only read it, so at the exit both halves hold the entry
  contents and are joined again. The result array is the only one the region writes.
-/
import proofs.«111192_g72069551227474_cont_9to1c4b_720_10_alg».proof.Proof.K.Body

set_option maxRecDepth 16384

noncomputable section

namespace Cert.Kernel.Sage

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- What rides beside the buffers through the host operations: the core's `owes`. -/
abbrev R (c : Dev nD) : sProp 𝕄 := iprop(∃ W, owes (c : Thread nD τ) (0 : CellTallies nD τ sig Unit) W)

/-- The unscoped references, as device buffers: the set the host operations run within. -/
abbrev uc : Finset (DevRef τ sig) := Pipeline.ucRefs τ sig

/-- The buffers after the region: the result array at what the write-backs left, every other as the region found it. -/
def Vmid (c : Dev nD) : Valuation τ sig (Elt F) :=
  Function.update (StableHlo.after hostOps0 (V₀ m c)) (Proc.devRef .tc main_v1) ((dats m 0 c).arrAt 4 cfg0.N)

/-- The same read at a TensorCore reference. -/
abbrev Vm (c : Dev nD) (b : Ref sig .tc) : Buf (Elt F) ((c : Thread nD τ).loc b) := Vmid m c (Proc.devRef .tc b)

/-- The buffers at the end: the result reshaped. -/
abbrev Vfin (c : Dev nD) : Valuation τ sig (Elt F) := StableHlo.after hostOps1 (Vmid m c)

/-- The distinct buffers behind the five windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg0) ↦{fullShare} W main_arg0)
          ∗ (((c : Thread nD τ).loc main_arg2) ↦{fullShare} W main_arg2) ∗ (((c : Thread nD τ).loc main_v1) ↦{fullShare} W main_v1)) := by
  unfold Pipeline.arrBufs
  exact bigSep_eq_bigSepL_of_eq [main_v0, main_arg0, main_arg2, main_v1] (by decide) (by decide) _

/-- The share each window holds its array at: the two adjacency windows a half each, the others the whole. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The pipeline's arrays at contents `G`, window by window at its share. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_arg0) ↦{fullShare} G 2) ∗ (((c : Thread nD τ).loc main_arg2) ↦{fullShare} G 3)
          ∗ (((c : Thread nD τ).loc main_v1) ↦{fullShare} G 4)) := by
  have h : ((dats m 0 c).arrays G : sProp 𝕄)
      = bigSep Finset.univ fun w : Fin 5 => (((c : Thread nD τ).loc (Pipeline.arrRef spec0 w)) ↦{(dats m 0 c).share w} G w : sProp 𝕄) := by
    unfold Pipeline.Dat.arrays
    exact bigSep_congr fun w _ => by rw [(arr_whole0 w).set_eq_univ]
  rw [h, bigSep_W0, share_0, share_1, share_2, share_3, share_4]

/-- THE FIRST HOST SEGMENT: the reshape of the adjacency, over the unscoped buffers. -/
def seg0 : Pipeline.HostSeg (Name := ℕ) (U := UR sig nD τ) (pcfgs (F := F)) defs₀ 𝒱₀ L lv :=
  Pipeline.HostSeg.ofOps _ _ _ _ _ uc hostOps0 (fun op h => Pipeline.sub_ucRefs op ((List.forall_iff_forall_mem.mp hostOps0_sub) op h))
    (by intro _ h; (repeat (cases h with | head => rfl | tail _ h => ?_)); exact nomatch h) (V₀ m) R

/-- THE LAST HOST SEGMENT: the reshape of the result. -/
def seg1 : Pipeline.HostSeg (Name := ℕ) (U := UR sig nD τ) (pcfgs (F := F)) defs₀ 𝒱₀ L lv :=
  Pipeline.HostSeg.ofOps _ _ _ _ _ uc hostOps1 (fun op h => Pipeline.sub_ucRefs op ((List.forall_iff_forall_mem.mp hostOps1_sub) op h))
    (by intro _ h; (repeat (cases h with | head => rfl | tail _ h => ?_)); exact nomatch h) (Vmid m) R

/-! ## What the region's ends hold, buffer by buffer -/

theorem ne_v1 {b : Ref sig .tc} (h : b ≠ main_v1) : (Proc.devRef .tc b : DevRef τ sig) ≠ Proc.devRef .tc main_v1 :=
  StableHlo.devRef_ne_of_ne h

/-- After the region every buffer but the result is as the region found it, -/
theorem Vm_of_ne (c : Dev nD) (b : Ref sig .tc) (h : b ≠ main_v1) : Vm m c b = V m c b := by
  unfold Vm Vmid; exact Function.update_of_ne (ne_v1 h) _ _
/-- and the result holds what the write-backs left. -/
theorem Vm_v1 (c : Dev nD) : Vm m c main_v1 = (dats m 0 c).arrAt 4 cfg0.N := by
  unfold Vm Vmid; exact Function.update_self _ _ _

/-- The arrays at entry are the region-entry contents. -/
theorem arrAt_zero (c : Dev nD) (w : Fin cfg0.W) : (dats m 0 c).arrAt w 0 = V m c (Pipeline.arrRef spec0 w) := A_eq m c w

/-- An input window's array is never written. -/
theorem arrAt_in_eq (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

-- unification of the pinned configuration with the program's has to unfold plain definitions in a metavariable's type
set_option backward.isDefEq.respectTransparency.types false in
/-- THE REGION: entered from what the first reshape left — the reshaped adjacency split in two half shares for the two
    windows that read it, the features, the weight and the result's array into the pipeline, the other two buffers
    bypassing —, left with the result's array at its final contents and the adjacency whole again. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) uc (StableHlo.after hostOps0 (V₀ m c)) ∗ R c)
  post c := iprop(StableHlo.held (c : Thread nD τ) uc (Vmid m c) ∗ R c)
  X _ := iprop(emp)
  Y _ := iprop(emp)
  Z c := iprop((((c : Thread nD τ).loc main_arg1) ↦{fullShare} V m c main_arg1) ∗ (((c : Thread nD τ).loc main_v2) ↦{fullShare} V m c main_v2))
  hentry c := by
    rw [show StableHlo.held (c : Thread nD τ) uc (StableHlo.after hostOps0 (V₀ m c)) = unscopedBufs c (V m c) from (Pipeline.unscopedBufs_held c _).symm,
      Pipeline.ownSems0_none]
    rw [Pipeline.unscopedBufs_split₀ cfgs 0 winFacts₀0.arr_unscoped c (V m c), arrBufs0_eq, unscopedRest0_eq, arrays0_eq]
    rw [arrAt_zero m c 0, arrAt_zero m c 1, arrAt_zero m c 2, arrAt_zero m c 3, arrAt_zero m c 4]
    iintro ⟨⟨⟨⟨Hv0, Ha0, Ha2, Hv1⟩, Ha1, Hv2⟩, HO⟩, -, -⟩
    ihave Hv0 := (pointsTo_share (PosShare.mem_left_op_right fullShare)).1 $$ Hv0
    icases Hv0 with ⟨Hl, Hr⟩
    imodintro
    isplitl [Hl Hr Ha0 Ha2 Hv1]
    · isplitl [Hl]; · iexact Hl
      isplitl [Hr]; · iexact Hr
      isplitl [Ha0]; · iexact Ha0
      isplitl [Ha2]; · iexact Ha2
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha1]; · iexact Ha1
    iexact Hv2
  hin c := by
    rw [show (dats m 0 c).Φ 0 = PhiS m c 0 from rfl]; unfold PhiS
    rw [scopedRest_scM]
    iintro ⟨-, -, Hr⟩
    iexact Hr
  hout c := by
    rw [Pipeline.ownSems0_none, scopedRest_scM, show (dats m 0 c).Φ (Fin.last cfg0.N) = PhiS m c (24 + 1) from rfl]; unfold PhiS
    iintro H
    isplitr; · iempintro
    isplitr; · iempintro
    iexists _; iexact H
  hexit c := by
    rw [arrays0_eq, arrAt_in_eq m c 0 rfl, arrAt_in_eq m c 1 rfl, arrAt_in_eq m c 2 rfl, arrAt_in_eq m c 3 rfl]
    rw [show StableHlo.held (c : Thread nD τ) uc (Vmid m c) = unscopedBufs c (Vm m c) from (Pipeline.unscopedBufs_held c _).symm]
    rw [Pipeline.unscopedBufs_split₀ cfgs 0 winFacts₀0.arr_unscoped c (Vm m c), arrBufs0_eq, unscopedRest0_eq]
    rw [Vm_of_ne m c main_v0 (by decide), Vm_of_ne m c main_arg0 (by decide), Vm_of_ne m c main_arg2 (by decide), Vm_of_ne m c main_arg1 (by decide),
      Vm_of_ne m c main_v2 (by decide), Vm_v1]
    iintro ⟨⟨Hl, Hr, Ha0, Ha2, Hv1⟩, HO, -, ⟨Ha1, Hv2⟩⟩
    ihave Hv0 := (pointsTo_share (PosShare.mem_left_op_right fullShare)).2 $$ [Hl Hr]
    · isplitl [Hl] <;> iassumption
    imodintro
    isplitr [HO]
    · isplitl [Hv0 Ha0 Ha2 Hv1]
      · isplitl [Hv0]; · iexact Hv0
        isplitl [Ha0]; · iexact Ha0
        isplitl [Ha2]; · iexact Ha2
        iexact Hv1
      isplitl [Ha1]; · iexact Ha1
      iexact Hv2
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

-- the implicit arguments are found by unifying the conclusion with this one, which takes unfolding plain definitions in a
-- metavariable's type
set_option backward.isDefEq.respectTransparency.types false in
/-- At the compiled mesh, for any float values, from any memory with zero counters: every weakly fair execution of @main on
    the TensorCores terminates, and every final state has every unscoped buffer at the contents the three segments compute. -/
theorem run_main : θ_run defs (onTc (τ := τ) (main (F := F))) (s₀ m ρ)
    (fun r => ∀ c : Dev nD, ∀ b ∈ (uc : Finset (DevRef τ sig)), r.2.mem (c, b) = Vfin m c b) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) uc (V₀ m c) ∗ R c)) (Tₙ := fun c => StableHlo.held (c : Thread nD τ) uc (Vfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) uc (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (uc : Finset (DevRef τ sig)), s.mem (c, b) = Vfin m c b)
    (hfin := fun c s' => by
      unfold StableHlo.held
      iintro ⟨Hh, HSI⟩
      ihave H := (pointsTo_read_all (uc : Finset (DevRef τ sig)) (fun b => ((c : Dev nD), b)) (Vfin m c) s') $$ [Hh HSI]
      · isplitl [Hh] <;> iassumption
      icases H with ⟨%h, HSI⟩
      imodintro
      isplitr; · ipureintro; exact h
      iexact HSI)
    (hQ := fun _ h => h)

end Cert.Kernel.Sage

end
-- ==== Proof.K.Final.lean ====
/-
  What the run leaves in each of @main's arrays: the three arguments as launched, the result the reshape of what the
  region's write-backs left.
-/
import proofs.«111192_g72069551227474_cont_9to1c4b_720_10_alg».proof.Proof.K.Region

set_option maxRecDepth 16384

noncomputable section

namespace Cert.Kernel.Sage

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is one of the buffers the run accounts for. -/
theorem mem_uc (b : Ref sig .tc) (hb : ¬ (Proc.devRef (τ := τ) .tc b).isScoped = true) : (Proc.devRef .tc b : DevRef τ sig) ∈ (uc : Finset (DevRef τ sig)) :=
  Finset.mem_filter.mpr ⟨StableHlo.devRef_mem_tcRefs b, hb⟩

/-- The first reshape writes only the reshaped adjacency, the second only the result. -/
theorem hostOps0_writes (b : Ref sig .tc) (h : b ≠ main_v0) : ∀ op ∈ (hostOps0 (F := F)), Proc.devRef .tc b ∉ op.writes := by
  intro op hop
  simp only [List.mem_cons, List.mem_nil_iff, or_false] at hop
  rcases hop with rfl
  simp only [StableHlo.reshape_writes, Finset.mem_singleton]
  exact StableHlo.devRef_ne_of_ne h
theorem hostOps1_writes (b : Ref sig .tc) (h : b ≠ main_v2) : ∀ op ∈ (hostOps1 (F := F)), Proc.devRef .tc b ∉ op.writes := by
  intro op hop
  simp only [List.mem_cons, List.mem_nil_iff, or_false] at hop
  rcases hop with rfl
  simp only [StableHlo.reshape_writes, Finset.mem_singleton]
  exact StableHlo.devRef_ne_of_ne h

/-- An argument array ends as launched: neither reshape writes it, and the region writes only the result's array. -/
theorem Vfin_arg (c : Dev nD) (b : Ref sig .tc) (h0 : b ≠ main_v0) (h1 : b ≠ main_v1) (h2 : b ≠ main_v2) :
    Vfin m c (Proc.devRef .tc b) = m ((c : Thread nD τ).loc b) := by
  unfold Vfin
  rw [StableHlo.after_of_forall_not_mem hostOps1 _ (hostOps1_writes b h2)]
  show Vm m c b = _
  rw [Vm_of_ne m c b h1]
  exact StableHlo.after_of_forall_not_mem hostOps0 _ (hostOps0_writes b h0)

/-- The result ends as the reshape of what the region's write-backs left. -/
theorem Vfin_v2 (c : Dev nD) :
    (Vfin m c (Proc.devRef .tc main_v2) : Vec F S10000x256 .f32)
      = shapeCast S10000x256 ((dats m 0 c).arrAt 4 cfg0.N : Vec F S2x5000x256 .f32) Facts₀.shapeCasts_S2x5000x256_S10000x256 := by
  show StableHlo.after hostOps1 (Vmid m c) (Proc.devRef .tc main_v2) = _
  after_results
  show shapeCast S10000x256 (Vm m c main_v1) _ = _
  rw [Vm_v1]

/-- THE RUN, read at @main's arrays: every weakly fair execution terminates, the arguments end unchanged and the result
    is the reshape of the region's final output array. -/
theorem run_arrays : θ_run defs (onTc (τ := τ) (main (F := F))) ⟨m, fun _ => 0, ρ⟩ (fun r => ∀ c : Dev nD,
      r.2.mem ((c.tc : Thread nD τ).loc main_v2)
          = (shapeCast S10000x256 ((dats m 0 c).arrAt 4 cfg0.N : Vec F S2x5000x256 .f32) Facts₀.shapeCasts_S2x5000x256_S10000x256 : Vec F S10000x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (Vfin_v2 m c),
     (h c _ (mem_uc main_arg0 (by decide))).trans (Vfin_arg m c main_arg0 (by decide) (by decide) (by decide)),
     (h c _ (mem_uc main_arg1 (by decide))).trans (Vfin_arg m c main_arg1 (by decide) (by decide) (by decide)),
     (h c _ (mem_uc main_arg2 (by decide))).trans (Vfin_arg m c main_arg2 (by decide) (by decide) (by decide))⟩)
    (run_main m ρ)

/-- THE FRAME: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_arrays m ρ)

end Cert.Kernel.Sage

end
-- ==== Proof.KI.RunA.lean ====
/-
  The kernel body run once per control case.

  The body of the fused layer kernel, at a grid point, reads four input buffers (two row bands of the adjacency,
  the whole feature matrix, the whole weight), one output buffer of two slabs, and a scratch that holds the
  projection P = x W2. At the first grid point it first fills the scratch with P (case A); at every other point it
  leaves the scratch as it found it (case B). In both cases it then stores, into slab 0 and slab 1 of the output
  buffer, the two bands  x[band] W1 + A[band] P.  Each case is run symbolically over the skeleton of memory
  operations; what the stores leave is found as a list of pieces.
-/
import proofs.«111192_g72069551227474_cont_9to1c4b_720_10_alg».proof.Proof.Gen.KernelIdeal.Launch
import proofs.«111192_g72069551227474_cont_9to1c4b_720_10_alg».proof.Proof.Gen.KernelIdeal.Skeleton
import proofs.«111192_g72069551227474_cont_9to1c4b_720_10_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch condition: is this the first grid point? -/

/-- The body's one conditional, over the grid coordinate: "the coordinate is zero". -/
abbrev cond0_0 (i : grid0.Coords) : Prop :=
  (Scalar.cmpi .ne (Scalar.extui (Scalar.cmpi .eq (BitVec.ofNat 32 (i 0).val) 0#32)) 0#32) = 1#1

/-- It holds at the first of the 25 points only. -/
theorem hcond0_0 : ∀ t : Fin cfg0.N, cond0_0 (grid0.coords t) ↔ t.val = 0 :=
  (by decide +kernel : ∀ t : Fin grid0.N, cond0_0 (grid0.coords t) ↔ t.val = 0)

/-! ## Case A: the first point -/

set_option maxHeartbeats 4000000 in
/-- At the first point: from the four inputs at their contents, the output buffer and the scratch at anything, the
    body runs to the inputs as they were, the output buffer with its pieces written (two slabs) and the scratch with
    its piece written (the projection). -/
noncomputable def kernelRun0_A (c : Dev nD) (i : grid0.Coords)
    (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole)
    (hc0 : cond0_0 i)
    (x1 : Vec F S1x200x10000 .f32) (x2 : Vec F S1x200x10000 .f32) (x3 : Vec F S10000x256 .f32) (x4 : Vec F S512x256 .f32) :
    Σ' (L5 : List (View.Piece (Elt F) S2x200x256 .f32)), { LS : List (View.Piece (Elt F) S10000x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc0__sage_kernel i arg1 harg1 arg2 harg2 arg3 harg3 arg4 harg4 arg5 harg5 arg6 harg6) K } := by
  refine ⟨?_, ?_, fun E K => ?run⟩
  case run =>
    simp only [cc0__sage_kernel_eq_skeleton]; unfold cc0__sage_kernel_skel
    simp only [k0_part1_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf1; obtain rfl := harg2.eq_unread hf2; obtain rfl := harg3.eq_unread hf3; obtain rfl := harg4.eq_unread hf4
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact HS

end Cert.KernelIdeal.Sage

end
-- ==== Proof.KI.RunB.lean ====
/-
  The kernel body at every grid point but the first (case B): the projection is already in the scratch, which the body
  only reads; the two output slabs are stored as at the first point.
-/
import proofs.«111192_g72069551227474_cont_9to1c4b_720_10_alg».proof.Proof.KI.RunA

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a later point: from the four inputs and the scratch at their contents and the output buffer at anything, the
    body runs to the inputs and the scratch as they were and the output buffer with its pieces written (two slabs). -/
noncomputable def kernelRun0_B (c : Dev nD) (i : grid0.Coords)
    (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole)
    (hc0 : ¬cond0_0 i)
    (x1 : Vec F S1x200x10000 .f32) (x2 : Vec F S1x200x10000 .f32) (x3 : Vec F S10000x256 .f32) (x4 : Vec F S512x256 .f32) (xs : Vec F S10000x256 .f32) :
    { L5 : List (View.Piece (Elt F) S2x200x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d) ∗ owns (c : Thread nD τ) arg6 fullShare xs
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare xs) -∗ K ⟨⟩))
          ⊢ wp frame (wpE (defs₀ (F := F)) Variants.none c none) E (cc0__sage_kernel i arg1 harg1 arg2 harg2 arg3 harg3 arg4 harg4 arg5 harg5 arg6 harg6) K } := by
  refine ⟨?_, fun E K => ?run⟩
  case run =>
    simp only [cc0__sage_kernel_eq_skeleton]; unfold cc0__sage_kernel_skel
    simp only [k0_part1_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf1; obtain rfl := harg2.eq_unread hf2; obtain rfl := harg3.eq_unread hf3; obtain rfl := harg4.eq_unread hf4
    obtain rfl := harg6.eq_unread hfs
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact HS

end Cert.KernelIdeal.Sage

end
-- ==== Proof.KI.Data.lean ====
/-
  What the pipeline's buffers hold point by point: the proof data.

  The grid has 25 points. Point t stages row band t of the upper half of the adjacency (window 0) and row band t of its
  lower half (window 1) — both windows read the one reshaped adjacency array —, keeps the whole feature matrix (window 2)
  and the whole weight (window 3) staged from the first point on, and writes back a two-slab output block (window 4).
  The scratch is filled with the projection at the first point and keeps it for the rest of the run.
-/
import proofs.«111192_g72069551227474_cont_9to1c4b_720_10_alg».proof.Proof.KI.RunB

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => m (c, b)
/-- and when the region is entered: the adjacency has been reshaped to two halves. -/
abbrev V (c : Dev nD) (b : Ref sig .tc) : Buf (Elt F) ((c : Thread nD τ).loc b) := StableHlo.after hostOps0 (V₀ m c) (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Every input window's current staging buffer holds its block at every point, fetched there or not: a window fetched
    only at the first point has not moved since. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, the scratch, and what each case leaves -/

abbrev ms0_0 (t : Fin cfg0.N) : Memref sig .tc .vmem S1x200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x200x256 .f32 := win0_4.stage (cfg0.slots t 4)
abbrev hs0_4 (t : Fin cfg0.N) : (ms0_4 t).IsWhole := hstage0_4 ((cfg0.slots t 4).cast nbuf0_4)
/-- The scratch operand: a whole scoped buffer of the kernel's own. -/
abbrev scM : Memref sig .tc .vmem S10000x256 .f32 := Memref.whole cc0_scratch0
/-- Views through which buffer contents are stated (the choice of buffer does not matter). -/
abbrev VO : View sig .tc .vmem S2x200x256 .f32 := (Memref.whole cc0_stg4_0 : Memref sig .tc .vmem S2x200x256 .f32).view
abbrev VS : View sig .tc .vmem S10000x256 .f32 := scM.view

/-- The first grid point. -/
abbrev t00 : Fin cfg0.N := ⟨0, by decide⟩

/-- The scoped rest of the region is the scratch, owned at some contents. -/
theorem scopedRest_scM (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- Case A's pieces for the output buffer tile it (two slabs), so they cover it. -/
theorem cover5_A (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : cond0_0 i) (x1 : Vec F S1x200x10000 .f32) (x2 : Vec F S1x200x10000 .f32) (x3 : Vec F S10000x256 .f32) (x4 : Vec F S512x256 .f32) (y : S2x200x256.Idx) :
    ∃ pc ∈ (kernelRun0_A c i arg1 harg1 arg2 harg2 arg3 harg3 arg4 harg4 arg5 harg5 arg6 harg6 hc0 x1 x2 x3 x4).1, y ∈ pc.1.set :=
  View.cover_of_tiledL (kernelRun0_A c i arg1 harg1 arg2 harg2 arg3 harg3 arg4 harg4 arg5 harg5 arg6 harg6 hc0 x1 x2 x3 x4).1 S1x200x256.size (by sl_kernel_rfl) y

/-- What case A leaves in the output buffer: its pieces read back. -/
def out5_A (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : cond0_0 i) (x1 : Vec F S1x200x10000 .f32) (x2 : Vec F S1x200x10000 .f32) (x3 : Vec F S10000x256 .f32) (x4 : Vec F S512x256 .f32) : Vec F S2x200x256 .f32 :=
  VO.read (Elt F) (VO.writes (Elt F) VO.junk (kernelRun0_A c i arg1 harg1 arg2 harg2 arg3 harg3 arg4 harg4 arg5 harg5 arg6 harg6 hc0 x1 x2 x3 x4).1)

/-- Case A's piece for the scratch covers it (one whole store). -/
theorem scover_A (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : cond0_0 i) (x1 : Vec F S1x200x10000 .f32) (x2 : Vec F S1x200x10000 .f32) (x3 : Vec F S10000x256 .f32) (x4 : Vec F S512x256 .f32) (y : S10000x256.Idx) :
    ∃ pc ∈ (kernelRun0_A c i arg1 harg1 arg2 harg2 arg3 harg3 arg4 harg4 arg5 harg5 arg6 harg6 hc0 x1 x2 x3 x4).2.1, y ∈ pc.1.set :=
  View.cover_of_tiledL (kernelRun0_A c i arg1 harg1 arg2 harg2 arg3 harg3 arg4 harg4 arg5 harg5 arg6 harg6 hc0 x1 x2 x3 x4).2.1 S10000x256.size (by sl_kernel_rfl) y

/-- What case A leaves in the scratch: its piece read back. -/
def sout_A (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : cond0_0 i) (x1 : Vec F S1x200x10000 .f32) (x2 : Vec F S1x200x10000 .f32) (x3 : Vec F S10000x256 .f32) (x4 : Vec F S512x256 .f32) : Vec F S10000x256 .f32 :=
  VS.read (Elt F) (VS.writes (Elt F) VS.junk (kernelRun0_A c i arg1 harg1 arg2 harg2 arg3 harg3 arg4 harg4 arg5 harg5 arg6 harg6 hc0 x1 x2 x3 x4).2.1)

/-- Case B's pieces for the output buffer tile it. -/
theorem cover5_B (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : ¬cond0_0 i) (x1 : Vec F S1x200x10000 .f32) (x2 : Vec F S1x200x10000 .f32) (x3 : Vec F S10000x256 .f32) (x4 : Vec F S512x256 .f32) (xs : Vec F S10000x256 .f32) (y : S2x200x256.Idx) :
    ∃ pc ∈ (kernelRun0_B c i arg1 harg1 arg2 harg2 arg3 harg3 arg4 harg4 arg5 harg5 arg6 harg6 hc0 x1 x2 x3 x4 xs).1, y ∈ pc.1.set :=
  View.cover_of_tiledL (kernelRun0_B c i arg1 harg1 arg2 harg2 arg3 harg3 arg4 harg4 arg5 harg5 arg6 harg6 hc0 x1 x2 x3 x4 xs).1 S1x200x256.size (by sl_kernel_rfl) y

/-- What case B leaves in the output buffer. -/
def out5_B (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : ¬cond0_0 i) (x1 : Vec F S1x200x10000 .f32) (x2 : Vec F S1x200x10000 .f32) (x3 : Vec F S10000x256 .f32) (x4 : Vec F S512x256 .f32) (xs : Vec F S10000x256 .f32) : Vec F S2x200x256 .f32 :=
  VO.read (Elt F) (VO.writes (Elt F) VO.junk (kernelRun0_B c i arg1 harg1 arg2 harg2 arg3 harg3 arg4 harg4 arg5 harg5 arg6 harg6 hc0 x1 x2 x3 x4 xs).1)

/-- The scratch from the first point on: what case A left there. -/
def scr (c : Dev nD) : Vec F S10000x256 .f32 :=
  sout_A c (grid0.coords t00) (ms0_0 t00) (hs0_0 t00) (ms0_1 t00) (hs0_1 t00) (ms0_2 t00) (hs0_2 t00) (ms0_3 t00) (hs0_3 t00) (ms0_4 t00) (hs0_4 t00) scM (Memref.isWhole_whole _) ((hcond0_0 t00).mpr rfl) (iblk m c 0 t00) (iblk m c 1 t00) (iblk m c 2 t00) (iblk m c 3 t00)

/-- What the output buffer holds after the body at point `t`. -/
def outAt (c : Dev nD) (t : Fin cfg0.N) : Vec F S2x200x256 .f32 :=
  if h : t.val = 0 then out5_A c (grid0.coords t) (ms0_0 t) (hs0_0 t) (ms0_1 t) (hs0_1 t) (ms0_2 t) (hs0_2 t) (ms0_3 t) (hs0_3 t) (ms0_4 t) (hs0_4 t) scM (Memref.isWhole_whole _) ((hcond0_0 t).mpr h) (iblk m c 0 t) (iblk m c 1 t) (iblk m c 2 t) (iblk m c 3 t)
  else out5_B c (grid0.coords t) (ms0_0 t) (hs0_0 t) (ms0_1 t) (hs0_1 t) (ms0_2 t) (hs0_2 t) (ms0_3 t) (hs0_3 t) (ms0_4 t) (hs0_4 t) scM (Memref.isWhole_whole _) (fun hc => h ((hcond0_0 t).mp hc)) (iblk m c 0 t) (iblk m c 1 t) (iblk m c 2 t) (iblk m c 3 t) (scr m c)

/-- The region invariant before position `n`: the scratch at anything before the first point, at the projection afterwards. -/
def PhiS (c : Dev nD) : ℕ → sProp 𝕄
  | 0 => iprop(∃ d, owns (c : Thread nD τ) scM fullShare d)
  | _ + 1 => owns (c : Thread nD τ) scM fullShare (scr m c)

/-! ## The pipeline's proof data -/

/-- The proof data of the one pipeline on core `c`: the arrays as the region finds them; after the body each input's
    buffer at its block and the output's at `outAt`; the scratch invariant; the reshaped adjacency shared between the two
    windows that read it, one half share each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Sage

end
-- ==== Proof.KI.Body.lean ====
/-
  The body's obligation at every grid point, from the two case runs.
-/
import proofs.«111192_g72069551227474_cont_9to1c4b_720_10_alg».proof.Proof.KI.Data

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The invariant before the first point, -/
theorem PhiS_zero (c : Dev nD) (n : ℕ) (h : n = 0) : PhiS m c n = iprop(∃ d, owns (c : Thread nD τ) scM fullShare d) := by
  subst h; rfl
/-- after any point, -/
theorem PhiS_succ (c : Dev nD) (n : ℕ) : PhiS m c (n + 1) = owns (c : Thread nD τ) scM fullShare (scr m c) := rfl
/-- and before a later one. -/
theorem PhiS_pos (c : Dev nD) (n : ℕ) (h : n ≠ 0) : PhiS m c n = owns (c : Thread nD τ) scM fullShare (scr m c) := by
  cases n with
  | zero => exact absurd rfl h
  | succ n => rfl

/-- The output buffer after the first point, -/
theorem outAt_zero (c : Dev nD) (t : Fin cfg0.N) (hz : t.val = 0) :
    outAt m c t = out5_A c (grid0.coords t) (ms0_0 t) (hs0_0 t) (ms0_1 t) (hs0_1 t) (ms0_2 t) (hs0_2 t) (ms0_3 t) (hs0_3 t) (ms0_4 t) (hs0_4 t) scM (Memref.isWhole_whole _) ((hcond0_0 t).mpr hz) (iblk m c 0 t) (iblk m c 1 t) (iblk m c 2 t) (iblk m c 3 t) := dif_pos hz
/-- and after a later one. -/
theorem outAt_pos (c : Dev nD) (t : Fin cfg0.N) (hz : ¬t.val = 0) :
    outAt m c t = out5_B c (grid0.coords t) (ms0_0 t) (hs0_0 t) (ms0_1 t) (hs0_1 t) (ms0_2 t) (hs0_2 t) (ms0_3 t) (hs0_3 t) (ms0_4 t) (hs0_4 t) scM (Memref.isWhole_whole _) (fun hc => hz ((hcond0_0 t).mp hc)) (iblk m c 0 t) (iblk m c 1 t) (iblk m c 2 t) (iblk m c 3 t) (scr m c) := dif_neg hz
/-- The projection is what the first point's run left in the scratch, whichever way the first point is spelt. -/
theorem scr_eq (c : Dev nD) (t : Fin cfg0.N) (hz : t.val = 0) :
    scr m c = sout_A c (grid0.coords t) (ms0_0 t) (hs0_0 t) (ms0_1 t) (hs0_1 t) (ms0_2 t) (hs0_2 t) (ms0_3 t) (hs0_3 t) (ms0_4 t) (hs0_4 t) scM (Memref.isWhole_whole _) ((hcond0_0 t).mpr hz) (iblk m c 0 t) (iblk m c 1 t) (iblk m c 2 t) (iblk m c 3 t) := by
  obtain rfl : t = t00 := Fin.ext hz
  rfl

set_option maxHeartbeats 4800000 in
/-- The body at the first point: the scratch is at anything and comes back holding the projection; the output buffer comes
    back with the two slabs stored. -/
theorem sound_body_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3, after0_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [PhiS_zero m c _ hz, PhiS_succ, outAt_zero m c t hz, scr_eq m c t hz]
  unfold out5_A sout_A
  iintro ⟨HS, Ho, ⟨%d0, H0⟩, ⟨%d1, H1⟩, ⟨%d2, H2⟩, ⟨%d3, H3⟩, ⟨%d4, H4⟩⟩
  iapply ((kernelRun0_A c (grid0.coords t) (ms0_0 t) (hs0_0 t) (ms0_1 t) (hs0_1 t) (ms0_2 t) (hs0_2 t) (ms0_3 t) (hs0_3 t) (ms0_4 t) (hs0_4 t) scM (Memref.isWhole_whole _) ((hcond0_0 t).mpr hz) (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS]
  · unfold owns; iexists _; isplitr
    swap; · iexact HS
    ipureintro; exact View.read_writes_of_cover _ _ _ _ _ (scover_A c _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover5_A c _ _ _ _ _ _ _ _ _ _ _ _ _ _ _ _ _ _)

set_option maxHeartbeats 4800000 in
/-- The body at a later point: the scratch holds the projection and comes back so; the output buffer comes back with the two
    slabs stored. -/
theorem sound_body_later (c : Dev nD) (t : Fin cfg0.N) (hz : ¬t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3, after0_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [PhiS_pos m c _ hz, PhiS_succ, outAt_pos m c t hz]
  unfold out5_B
  iintro ⟨HS, Ho, ⟨%d0, H0⟩, ⟨%d1, H1⟩, ⟨%d2, H2⟩, ⟨%d3, H3⟩, ⟨%d4, H4⟩⟩
  iapply ((kernelRun0_B c (grid0.coords t) (ms0_0 t) (hs0_0 t) (ms0_1 t) (hs0_1 t) (ms0_2 t) (hs0_2 t) (ms0_3 t) (hs0_3 t) (ms0_4 t) (hs0_4 t) scM (Memref.isWhole_whole _) (fun hc => hz ((hcond0_0 t).mp hc)) (iblk m c 0 t) (iblk m c 1 t) (iblk m c 2 t) (iblk m c 3 t) (scr m c)).2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS]; · iexact HS
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover5_B c _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_body_first m c t hz
  · exact sound_body_later m c t hz

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Sage

end
-- ==== Proof.KI.Region.lean ====
/-
  The launch: @main as three segments — the reshape of the adjacency, the kernel region, the reshape of the result.

  The two adjacency windows read ONE array (the reshaped adjacency). At the region's entry its buffer, held whole, is
  split into two half shares, one per window; the windows only read it, so at the exit both halves hold the entry
  contents and are joined again. The result array is the only one the region writes.
-/
import proofs.«111192_g72069551227474_cont_9to1c4b_720_10_alg».proof.Proof.KI.Body

set_option maxRecDepth 16384

noncomputable section

namespace Cert.KernelIdeal.Sage

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- What rides beside the buffers through the host operations: the core's `owes`. -/
abbrev R (c : Dev nD) : sProp 𝕄 := iprop(∃ W, owes (c : Thread nD τ) (0 : CellTallies nD τ sig Unit) W)

/-- The unscoped references, as device buffers: the set the host operations run within. -/
abbrev uc : Finset (DevRef τ sig) := Pipeline.ucRefs τ sig

/-- The buffers after the region: the result array at what the write-backs left, every other as the region found it. -/
def Vmid (c : Dev nD) : Valuation τ sig (Elt F) :=
  Function.update (StableHlo.after hostOps0 (V₀ m c)) (Proc.devRef .tc main_v1) ((dats m 0 c).arrAt 4 cfg0.N)

/-- The same read at a TensorCore reference. -/
abbrev Vm (c : Dev nD) (b : Ref sig .tc) : Buf (Elt F) ((c : Thread nD τ).loc b) := Vmid m c (Proc.devRef .tc b)

/-- The buffers at the end: the result reshaped. -/
abbrev Vfin (c : Dev nD) : Valuation τ sig (Elt F) := StableHlo.after hostOps1 (Vmid m c)

/-- The distinct buffers behind the five windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg0) ↦{fullShare} W main_arg0)
          ∗ (((c : Thread nD τ).loc main_arg2) ↦{fullShare} W main_arg2) ∗ (((c : Thread nD τ).loc main_v1) ↦{fullShare} W main_v1)) := by
  unfold Pipeline.arrBufs
  exact bigSep_eq_bigSepL_of_eq [main_v0, main_arg0, main_arg2, main_v1] (by decide) (by decide) _

/-- The share each window holds its array at: the two adjacency windows a half each, the others the whole. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The pipeline's arrays at contents `G`, window by window at its share. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_arg0) ↦{fullShare} G 2) ∗ (((c : Thread nD τ).loc main_arg2) ↦{fullShare} G 3)
          ∗ (((c : Thread nD τ).loc main_v1) ↦{fullShare} G 4)) := by
  have h : ((dats m 0 c).arrays G : sProp 𝕄)
      = bigSep Finset.univ fun w : Fin 5 => (((c : Thread nD τ).loc (Pipeline.arrRef spec0 w)) ↦{(dats m 0 c).share w} G w : sProp 𝕄) := by
    unfold Pipeline.Dat.arrays
    exact bigSep_congr fun w _ => by rw [(arr_whole0 w).set_eq_univ]
  rw [h, bigSep_W0, share_0, share_1, share_2, share_3, share_4]

/-- THE FIRST HOST SEGMENT: the reshape of the adjacency, over the unscoped buffers. -/
def seg0 : Pipeline.HostSeg (Name := ℕ) (U := UR sig nD τ) (pcfgs (F := F)) defs₀ 𝒱₀ L lv :=
  Pipeline.HostSeg.ofOps _ _ _ _ _ uc hostOps0 (fun op h => Pipeline.sub_ucRefs op ((List.forall_iff_forall_mem.mp hostOps0_sub) op h))
    (by intro _ h; (repeat (cases h with | head => rfl | tail _ h => ?_)); exact nomatch h) (V₀ m) R

/-- THE LAST HOST SEGMENT: the reshape of the result. -/
def seg1 : Pipeline.HostSeg (Name := ℕ) (U := UR sig nD τ) (pcfgs (F := F)) defs₀ 𝒱₀ L lv :=
  Pipeline.HostSeg.ofOps _ _ _ _ _ uc hostOps1 (fun op h => Pipeline.sub_ucRefs op ((List.forall_iff_forall_mem.mp hostOps1_sub) op h))
    (by intro _ h; (repeat (cases h with | head => rfl | tail _ h => ?_)); exact nomatch h) (Vmid m) R

/-! ## What the region's ends hold, buffer by buffer -/

theorem ne_v1 {b : Ref sig .tc} (h : b ≠ main_v1) : (Proc.devRef .tc b : DevRef τ sig) ≠ Proc.devRef .tc main_v1 :=
  StableHlo.devRef_ne_of_ne h

/-- After the region every buffer but the result is as the region found it, -/
theorem Vm_of_ne (c : Dev nD) (b : Ref sig .tc) (h : b ≠ main_v1) : Vm m c b = V m c b := by
  unfold Vm Vmid; exact Function.update_of_ne (ne_v1 h) _ _
/-- and the result holds what the write-backs left. -/
theorem Vm_v1 (c : Dev nD) : Vm m c main_v1 = (dats m 0 c).arrAt 4 cfg0.N := by
  unfold Vm Vmid; exact Function.update_self _ _ _

/-- The arrays at entry are the region-entry contents. -/
theorem arrAt_zero (c : Dev nD) (w : Fin cfg0.W) : (dats m 0 c).arrAt w 0 = V m c (Pipeline.arrRef spec0 w) := A_eq m c w

/-- An input window's array is never written. -/
theorem arrAt_in_eq (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

-- unification of the pinned configuration with the program's has to unfold plain definitions in a metavariable's type
set_option backward.isDefEq.respectTransparency.types false in
/-- THE REGION: entered from what the first reshape left — the reshaped adjacency split in two half shares for the two
    windows that read it, the features, the weight and the result's array into the pipeline, the other two buffers
    bypassing —, left with the result's array at its final contents and the adjacency whole again. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) uc (StableHlo.after hostOps0 (V₀ m c)) ∗ R c)
  post c := iprop(StableHlo.held (c : Thread nD τ) uc (Vmid m c) ∗ R c)
  X _ := iprop(emp)
  Y _ := iprop(emp)
  Z c := iprop((((c : Thread nD τ).loc main_arg1) ↦{fullShare} V m c main_arg1) ∗ (((c : Thread nD τ).loc main_v2) ↦{fullShare} V m c main_v2))
  hentry c := by
    rw [show StableHlo.held (c : Thread nD τ) uc (StableHlo.after hostOps0 (V₀ m c)) = unscopedBufs c (V m c) from (Pipeline.unscopedBufs_held c _).symm,
      Pipeline.ownSems0_none]
    rw [Pipeline.unscopedBufs_split₀ cfgs 0 winFacts₀0.arr_unscoped c (V m c), arrBufs0_eq, unscopedRest0_eq, arrays0_eq]
    rw [arrAt_zero m c 0, arrAt_zero m c 1, arrAt_zero m c 2, arrAt_zero m c 3, arrAt_zero m c 4]
    iintro ⟨⟨⟨⟨Hv0, Ha0, Ha2, Hv1⟩, Ha1, Hv2⟩, HO⟩, -, -⟩
    ihave Hv0 := (pointsTo_share (PosShare.mem_left_op_right fullShare)).1 $$ Hv0
    icases Hv0 with ⟨Hl, Hr⟩
    imodintro
    isplitl [Hl Hr Ha0 Ha2 Hv1]
    · isplitl [Hl]; · iexact Hl
      isplitl [Hr]; · iexact Hr
      isplitl [Ha0]; · iexact Ha0
      isplitl [Ha2]; · iexact Ha2
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha1]; · iexact Ha1
    iexact Hv2
  hin c := by
    rw [show (dats m 0 c).Φ 0 = PhiS m c 0 from rfl]; unfold PhiS
    rw [scopedRest_scM]
    iintro ⟨-, -, Hr⟩
    iexact Hr
  hout c := by
    rw [Pipeline.ownSems0_none, scopedRest_scM, show (dats m 0 c).Φ (Fin.last cfg0.N) = PhiS m c (24 + 1) from rfl]; unfold PhiS
    iintro H
    isplitr; · iempintro
    isplitr; · iempintro
    iexists _; iexact H
  hexit c := by
    rw [arrays0_eq, arrAt_in_eq m c 0 rfl, arrAt_in_eq m c 1 rfl, arrAt_in_eq m c 2 rfl, arrAt_in_eq m c 3 rfl]
    rw [show StableHlo.held (c : Thread nD τ) uc (Vmid m c) = unscopedBufs c (Vm m c) from (Pipeline.unscopedBufs_held c _).symm]
    rw [Pipeline.unscopedBufs_split₀ cfgs 0 winFacts₀0.arr_unscoped c (Vm m c), arrBufs0_eq, unscopedRest0_eq]
    rw [Vm_of_ne m c main_v0 (by decide), Vm_of_ne m c main_arg0 (by decide), Vm_of_ne m c main_arg2 (by decide), Vm_of_ne m c main_arg1 (by decide),
      Vm_of_ne m c main_v2 (by decide), Vm_v1]
    iintro ⟨⟨Hl, Hr, Ha0, Ha2, Hv1⟩, HO, -, ⟨Ha1, Hv2⟩⟩
    ihave Hv0 := (pointsTo_share (PosShare.mem_left_op_right fullShare)).2 $$ [Hl Hr]
    · isplitl [Hl] <;> iassumption
    imodintro
    isplitr [HO]
    · isplitl [Hv0 Ha0 Ha2 Hv1]
      · isplitl [Hv0]; · iexact Hv0
        isplitl [Ha0]; · iexact Ha0
        isplitl [Ha2]; · iexact Ha2
        iexact Hv1
      isplitl [Ha1]; · iexact Ha1
      iexact Hv2
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

-- the implicit arguments are found by unifying the conclusion with this one, which takes unfolding plain definitions in a
-- metavariable's type
set_option backward.isDefEq.respectTransparency.types false in
/-- At the compiled mesh, for any float values, from any memory with zero counters: every weakly fair execution of @main on
    the TensorCores terminates, and every final state has every unscoped buffer at the contents the three segments compute. -/
theorem run_main : θ_run defs (onTc (τ := τ) (main (F := F))) (s₀ m ρ)
    (fun r => ∀ c : Dev nD, ∀ b ∈ (uc : Finset (DevRef τ sig)), r.2.mem (c, b) = Vfin m c b) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) uc (V₀ m c) ∗ R c)) (Tₙ := fun c => StableHlo.held (c : Thread nD τ) uc (Vfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) uc (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (uc : Finset (DevRef τ sig)), s.mem (c, b) = Vfin m c b)
    (hfin := fun c s' => by
      unfold StableHlo.held
      iintro ⟨Hh, HSI⟩
      ihave H := (pointsTo_read_all (uc : Finset (DevRef τ sig)) (fun b => ((c : Dev nD), b)) (Vfin m c) s') $$ [Hh HSI]
      · isplitl [Hh] <;> iassumption
      icases H with ⟨%h, HSI⟩
      imodintro
      isplitr; · ipureintro; exact h
      iexact HSI)
    (hQ := fun _ h => h)

end Cert.KernelIdeal.Sage

end
-- ==== Proof.KI.Final.lean ====
/-
  What the run leaves in each of @main's arrays: the three arguments as launched, the result the reshape of what the
  region's write-backs left.
-/
import proofs.«111192_g72069551227474_cont_9to1c4b_720_10_alg».proof.Proof.KI.Region

set_option maxRecDepth 16384

noncomputable section

namespace Cert.KernelIdeal.Sage

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is one of the buffers the run accounts for. -/
theorem mem_uc (b : Ref sig .tc) (hb : ¬ (Proc.devRef (τ := τ) .tc b).isScoped = true) : (Proc.devRef .tc b : DevRef τ sig) ∈ (uc : Finset (DevRef τ sig)) :=
  Finset.mem_filter.mpr ⟨StableHlo.devRef_mem_tcRefs b, hb⟩

/-- The first reshape writes only the reshaped adjacency, the second only the result. -/
theorem hostOps0_writes (b : Ref sig .tc) (h : b ≠ main_v0) : ∀ op ∈ (hostOps0 (F := F)), Proc.devRef .tc b ∉ op.writes := by
  intro op hop
  simp only [List.mem_cons, List.mem_nil_iff, or_false] at hop
  rcases hop with rfl
  simp only [StableHlo.reshape_writes, Finset.mem_singleton]
  exact StableHlo.devRef_ne_of_ne h
theorem hostOps1_writes (b : Ref sig .tc) (h : b ≠ main_v2) : ∀ op ∈ (hostOps1 (F := F)), Proc.devRef .tc b ∉ op.writes := by
  intro op hop
  simp only [List.mem_cons, List.mem_nil_iff, or_false] at hop
  rcases hop with rfl
  simp only [StableHlo.reshape_writes, Finset.mem_singleton]
  exact StableHlo.devRef_ne_of_ne h

/-- An argument array ends as launched: neither reshape writes it, and the region writes only the result's array. -/
theorem Vfin_arg (c : Dev nD) (b : Ref sig .tc) (h0 : b ≠ main_v0) (h1 : b ≠ main_v1) (h2 : b ≠ main_v2) :
    Vfin m c (Proc.devRef .tc b) = m ((c : Thread nD τ).loc b) := by
  unfold Vfin
  rw [StableHlo.after_of_forall_not_mem hostOps1 _ (hostOps1_writes b h2)]
  show Vm m c b = _
  rw [Vm_of_ne m c b h1]
  exact StableHlo.after_of_forall_not_mem hostOps0 _ (hostOps0_writes b h0)

/-- The result ends as the reshape of what the region's write-backs left. -/
theorem Vfin_v2 (c : Dev nD) :
    (Vfin m c (Proc.devRef .tc main_v2) : Vec F S10000x256 .f32)
      = shapeCast S10000x256 ((dats m 0 c).arrAt 4 cfg0.N : Vec F S2x5000x256 .f32) Facts₀.shapeCasts_S2x5000x256_S10000x256 := by
  show StableHlo.after hostOps1 (Vmid m c) (Proc.devRef .tc main_v2) = _
  after_results
  show shapeCast S10000x256 (Vm m c main_v1) _ = _
  rw [Vm_v1]

/-- THE RUN, read at @main's arrays: every weakly fair execution terminates, the arguments end unchanged and the result
    is the reshape of the region's final output array. -/
theorem run_arrays : θ_run defs (onTc (τ := τ) (main (F := F))) ⟨m, fun _ => 0, ρ⟩ (fun r => ∀ c : Dev nD,
      r.2.mem ((c.tc : Thread nD τ).loc main_v2)
          = (shapeCast S10000x256 ((dats m 0 c).arrAt 4 cfg0.N : Vec F S2x5000x256 .f32) Facts₀.shapeCasts_S2x5000x256_S10000x256 : Vec F S10000x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (Vfin_v2 m c),
     (h c _ (mem_uc main_arg0 (by decide))).trans (Vfin_arg m c main_arg0 (by decide) (by decide) (by decide)),
     (h c _ (mem_uc main_arg1 (by decide))).trans (Vfin_arg m c main_arg1 (by decide) (by decide) (by decide)),
     (h c _ (mem_uc main_arg2 (by decide))).trans (Vfin_arg m c main_arg2 (by decide) (by decide) (by decide))⟩)
    (run_main m ρ)

/-- THE FRAME: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_arrays m ρ)

end Cert.KernelIdeal.Sage

end
-- ==== Proof.Reshapes.lean ====
/-
  The two reshapes around the kernel, read at an index. A reshape keeps the row-major order of the entries. The
  adjacency [10000,10000] becomes [2,5000,10000]: half s, row r of the half, column j is row 5000 s + r of the
  matrix. The result [2,5000,256] becomes [10000,256]: row R comes from half R / 5000, row R % 5000 of that half.
-/
import proofs.«111192_g72069551227474_cont_9to1c4b_720_10_alg».proof.Proof.Gen.KernelIdeal
import Idealize.ShloMosaic.Lib.Pipeline.Value
import Idealize.ShloMosaic.Lib.ValueIdx
import Idealize.ShloMosaic.Lib.ValueLayout

noncomputable section

namespace Cert.KernelIdeal.Reshape

open Cert.KernelIdeal Idealize.ShloMosaic Idealize.ShloMosaic.ValueIdx

variable {F : FTy → Type} [FloatOps F]

/-- The adjacency split into two halves of 5000 rows: entry (s, r, j) is entry (5000 s + r, j) of the matrix. -/
theorem reshape_in_apply (a : Vec F S10000x10000 .f32) (s : Fin 2) (r : Fin 5000) (j : Fin 10000) :
    shapeCast S2x5000x10000 a Facts₀.shapeCasts_S10000x10000_S2x5000x10000 (ix3 s r j)
      = a (ix2 ⟨5000 * s.val + r.val, by omega⟩ j) :=
  shapeCast_apply a Facts₀.shapeCasts_S10000x10000_S2x5000x10000 _ _ (by
    rw [Shape.rowMajor_val_two, Shape.rowMajor_val_three]
    show (5000 * s.val + r.val) * 10000 + j.val = (s.val * 5000 + r.val) * 10000 + j.val
    omega)

/-- The two halves of the result laid end to end: row R is row R % 5000 of half R / 5000. -/
theorem reshape_out_apply (y : Vec F S2x5000x256 .f32) (R : Fin 10000) (c : Fin 256) :
    shapeCast S10000x256 y Facts₀.shapeCasts_S2x5000x256_S10000x256 (ix2 R c)
      = y (ix3 ⟨R.val / 5000, by omega⟩ ⟨R.val % 5000, Nat.mod_lt _ (by omega)⟩ c) :=
  shapeCast_apply y Facts₀.shapeCasts_S2x5000x256_S10000x256 _ _ (by
    rw [Shape.rowMajor_val_three, Shape.rowMajor_val_two]
    show (R.val / 5000 * 5000 + R.val % 5000) * 256 + c.val = R.val * 256 + c.val
    omega)

end Cert.KernelIdeal.Reshape

end
-- ==== Proof.KernelValueBlocks.lean ====
/-
  What the region finds in its arrays, and what each window stages at a grid point.

  Before the region one reshape turns the adjacency [10000,10000] into two halves [2,5000,10000]; the features and the
  weight are as launched. At grid point t the two adjacency windows stage rows 200 t .. 200 t + 199 of the upper and of
  the lower half, the feature and weight windows stage their whole arrays. The index maps are decided once over the
  25 grid points; a block's coordinate in its array is (block index) * (block size) + (coordinate inside the block).
-/
import proofs.«111192_g72069551227474_cont_9to1c4b_720_10_alg».proof.Proof.KI.Data
import proofs.«111192_g72069551227474_cont_9to1c4b_720_10_alg».proof.Proof.Reshapes
import Idealize.ShloMosaic.Lib.Pipeline.Value
import Idealize.ShloMosaic.Lib.StableHlo.Run
import Idealize.ShloMosaic.Lib.Tactic

set_option maxRecDepth 16384

noncomputable section

namespace Cert.KernelIdeal.SageValue

open Cert.KernelIdeal Cert.KernelIdeal.Gen Cert.KernelIdeal.Sage
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]
variable (m : (ℓ : Loc nD τ sig) → Buf (Elt F) ℓ)

/-- The grid has 25 points. -/
theorem tlt (t : Fin cfg0.N) : t.val < 25 := Nat.lt_of_lt_of_eq t.isLt N_0

/-! ## The arrays as the region finds them -/

/-- No host operation writes the features before the region. -/
theorem V_arg0 (c : Dev nD) : (V m c main_arg0 : Vec F S10000x256 .f32) = m ((c : Thread nD τ).loc main_arg0) := by
  show StableHlo.after hostOps0 _ (Proc.devRef .tc main_arg0) = _
  after_results
/-- No host operation writes the weight before the region. -/
theorem V_arg2 (c : Dev nD) : (V m c main_arg2 : Vec F S512x256 .f32) = m ((c : Thread nD τ).loc main_arg2) := by
  show StableHlo.after hostOps0 _ (Proc.devRef .tc main_arg2) = _
  after_results
/-- The one host operation before the region reshapes the adjacency into two halves. -/
theorem V_v0 (c : Dev nD) : (V m c main_v0 : Vec F S2x5000x10000 .f32)
    = shapeCast S2x5000x10000 (m ((c : Thread nD τ).loc main_arg1) : Vec F S10000x10000 .f32) Facts₀.shapeCasts_S10000x10000_S2x5000x10000 := by
  show StableHlo.after hostOps0 _ (Proc.devRef .tc main_v0) = _
  after_results
  rfl

/-! ## The index maps, decided over the grid -/

theorem idx_facts : ∀ t : Fin cfg0.N,
    win0_0.index t (0 : Fin 3) = 0 ∧ win0_0.index t (1 : Fin 3) = t.val ∧ win0_0.index t (2 : Fin 3) = 0
    ∧ win0_1.index t (0 : Fin 3) = 1 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0
    ∧ k0_off1 (grid0.coords t) 0 = 200 * t.val ∧ k0_off1 (grid0.coords t) 1 = 0
    ∧ k0_off2 (grid0.coords t) 0 = 5000 + 200 * t.val ∧ k0_off2 (grid0.coords t) 1 = 0 :=
  (by decide +kernel : ∀ t : Fin grid0.N, _)

/-! ## The blocks -/

/-- The staged feature block is the whole feature matrix. -/
theorem iblk2_eq (c : Dev nD) (t : Fin cfg0.N) : (iblk m c 2 t : Vec F S10000x256 .f32) = V m c main_arg0 := by
  obtain ⟨_, _, _, _, _, _, e0, e1, _⟩ := idx_facts t
  funext y
  unfold iblk
  rw [View.read_apply]
  show V m c main_arg0 _ = V m c main_arg0 y
  congr 1
  funext a
  apply Fin.ext
  match a with
  | ⟨0, _⟩ => show win0_2.index t (0 : Fin 2) * 10000 + 1 * (y 0).val = (y 0).val; rw [e0]; omega
  | ⟨1, _⟩ => show win0_2.index t (1 : Fin 2) * 256 + 1 * (y 1).val = (y 1).val; rw [e1]; omega

/-- The staged weight block is the whole weight. -/
theorem iblk3_eq (c : Dev nD) (t : Fin cfg0.N) : (iblk m c 3 t : Vec F S512x256 .f32) = V m c main_arg2 := by
  obtain ⟨_, _, _, _, _, _, _, _, e0, e1, _⟩ := idx_facts t
  funext y
  unfold iblk
  rw [View.read_apply]
  show V m c main_arg2 _ = V m c main_arg2 y
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 256 + 1 * (y 1).val = (y 1).val; rw [e1]; omega

/-- Row r of the upper band staged at point t is row 200 t + r of the upper half of the adjacency. -/
theorem iblk0_apply (c : Dev nD) (t : Fin cfg0.N) (r : Fin 200) (j : Fin 10000) :
    (iblk m c 0 t : Vec F S1x200x10000 .f32) (ix3 (0 : Fin 1) r j)
      = (V m c main_v0 : Vec F S2x5000x10000 .f32) (ix3 (0 : Fin 2) ⟨200 * t.val + r.val, by have := tlt t; omega⟩ j) := by
  obtain ⟨e0, e1, e2, _⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = 0; rw [e0]
  | ⟨1, _⟩ => show win0_0.index t (1 : Fin 3) * 200 + 1 * r.val = 200 * t.val + r.val; rw [e1]; omega
  | ⟨2, _⟩ => show win0_0.index t (2 : Fin 3) * 10000 + 1 * j.val = j.val; rw [e2]; omega

/-- Row r of the lower band staged at point t is row 200 t + r of the lower half of the adjacency. -/
theorem iblk1_apply (c : Dev nD) (t : Fin cfg0.N) (r : Fin 200) (j : Fin 10000) :
    (iblk m c 1 t : Vec F S1x200x10000 .f32) (ix3 (0 : Fin 1) r j)
      = (V m c main_v0 : Vec F S2x5000x10000 .f32) (ix3 (1 : Fin 2) ⟨200 * t.val + r.val, by have := tlt t; omega⟩ j) := by
  obtain ⟨_, _, _, e0, e1, e2, _⟩ := idx_facts t
  unfold iblk
  rw [View.read_apply]
  show V m c main_v0 _ = V m c main_v0 _
  congr 1
  funext a
  apply Fin.ext
  match a with
  | ⟨0, _⟩ => show win0_1.index t (0 : Fin 3) * 1 + 1 * 0 = 1; rw [e0]
  | ⟨1, _⟩ => show win0_1.index t (1 : Fin 3) * 200 + 1 * r.val = 200 * t.val + r.val; rw [e1]; omega
  | ⟨2, _⟩ => show win0_1.index t (2 : Fin 3) * 10000 + 1 * j.val = j.val; rw [e2]; omega

end Cert.KernelIdeal.SageValue

end
-- ==== Proof.KernelValuePieces.lean ====
/-
  What one run of the kernel body leaves in the scratch and in the two-slab output buffer, read back from the pieces
  its stores leave, for any float values.

  The body's loads read the staged buffers through rectangles: the whole buffer (offset zero), rows 0..255 or 256..511
  of the weight (W1, W2), and 200 feature rows at the band's offset. At the first grid point the scratch is stored once,
  whole, with the projection payload, and the later loads of the scratch read that store back; at a later point the
  scratch is read as found. The output buffer receives two stores, slab 0 and then slab 1: an entry of slab 1 reads the
  last store, an entry of slab 0 reads the first one, which the last store does not reach.
-/
import proofs.«111192_g72069551227474_cont_9to1c4b_720_10_alg».proof.Proof.KI.Data
import Idealize.ShloMosaic.Lib.Pipeline.Value
import Idealize.ShloMosaic.Lib.ValueIdx
import Idealize.ShloMosaic.Lib.Tactic

set_option maxRecDepth 16384

noncomputable section

namespace Cert.KernelIdeal.SageValue

open Cert.KernelIdeal Cert.KernelIdeal.Gen Cert.KernelIdeal.Sage
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Rows 0 to 255 of the weight: W1. -/
abbrev w1Of (x4 : Vec F S512x256 .f32) : Vec F S256x256 .f32 :=
  View.ld x4 (Rect.unit (s := S512x256) ![0, 0] S256x256.size Facts₀.inb_S512x256_S256x256_0_0)
/-- Rows 256 to 511 of the weight: W2. -/
abbrev w2Of (x4 : Vec F S512x256 .f32) : Vec F S256x256 .f32 :=
  View.ld x4 (Rect.unit (s := S512x256) ![256, 0] S256x256.size Facts₀.inb_S512x256_S256x256_256_0)
/-- The 200 feature rows of the upper band at grid coordinate i. -/
abbrev rowsLo (i : grid0.Coords) (x3 : Vec F S10000x256 .f32) : Vec F S200x256 .f32 :=
  View.ld x3 (Rect.unit (s := S10000x256) (k0_off1 i) S200x256.size (Facts₀.k0_off1_inb i))
/-- The 200 feature rows of the lower band at grid coordinate i. -/
abbrev rowsHi (i : grid0.Coords) (x3 : Vec F S10000x256 .f32) : Vec F S200x256 .f32 :=
  View.ld x3 (Rect.unit (s := S10000x256) (k0_off2 i) S200x256.size (Facts₀.k0_off2_inb i))

/-- Slab 1 of the output buffer, as an index of the buffer. -/
theorem emb_hi (r : Fin 200) (cc : Fin 256) :
    (Rect.unit (s := S2x200x256) ![1, 0, 0] S1x200x256.size Facts₀.inb_S2x200x256_S1x200x256_1_0_0).emb (ix3 (0 : Fin 1) r cc)
      = ix3 (1 : Fin 2) r cc :=
  funext fun a => Fin.ext (by
    match a with
    | ⟨0, _⟩ => rfl
    | ⟨1, _⟩ => show 0 + 1 * r.val = r.val; omega
    | ⟨2, _⟩ => show 0 + 1 * cc.val = cc.val; omega)
/-- Slab 0 of the output buffer, as an index of the buffer. -/
theorem emb_lo (r : Fin 200) (cc : Fin 256) :
    (Rect.unit (s := S2x200x256) ![0, 0, 0] S1x200x256.size Facts₀.inb_S2x200x256_S1x200x256_0_0_0).emb (ix3 (0 : Fin 1) r cc)
      = ix3 (0 : Fin 2) r cc :=
  funext fun a => Fin.ext (by
    match a with
    | ⟨0, _⟩ => rfl
    | ⟨1, _⟩ => show 0 + 1 * r.val = r.val; omega
    | ⟨2, _⟩ => show 0 + 1 * cc.val = cc.val; omega)
/-- Slab 0 is not under the store of slab 1. -/
theorem lo_not_mem_hi (r : Fin 200) (cc : Fin 256) :
    ix3 (0 : Fin 2) r cc ∉ (Rect.unit (s := S2x200x256) ![1, 0, 0] S1x200x256.size Facts₀.inb_S2x200x256_S1x200x256_1_0_0).set := by
  rw [Rect.mem_set_unit]
  intro h
  have h0 : (1 : ℕ) ≤ 0 := (h 0).1
  omega

/-- The store of slab 1 of the output buffer, and the store of slab 0. -/
abbrev rHi : Rect S2x200x256 := Rect.unit (s := S2x200x256) ![1, 0, 0] S1x200x256.size Facts₀.inb_S2x200x256_S1x200x256_1_0_0
abbrev rLo : Rect S2x200x256 := Rect.unit (s := S2x200x256) ![0, 0, 0] S1x200x256.size Facts₀.inb_S2x200x256_S1x200x256_0_0_0

/-- Two stores, slab 0 first and slab 1 last, read at slab 1: the last store's payload. -/
theorem canon_two_hi {Val : EltTy → Type} [∀ e, Nonempty (Val e)] (w1 : rHi.shape.Idx → Val .f32) (w0 : rLo.shape.Idx → Val .f32) (r : Fin 200) (cc : Fin 256) :
    View.canon [(⟨rHi, w1⟩ : View.Piece Val S2x200x256 .f32), ⟨rLo, w0⟩] (ix3 (1 : Fin 2) r cc)
      = w1 (ix3 (0 : Fin 1) r cc) := by
  have e : ix3 (1 : Fin 2) r cc = rHi.emb (ix3 (0 : Fin 1) r cc) := (emb_hi r cc).symm
  rw [e]
  exact View.canon_cons_emb rHi w1 _ _

/-- The same read at slab 0: the first store's payload, the last store not reaching it. -/
theorem canon_two_lo {Val : EltTy → Type} [∀ e, Nonempty (Val e)] (w1 : rHi.shape.Idx → Val .f32) (w0 : rLo.shape.Idx → Val .f32) (r : Fin 200) (cc : Fin 256) :
    View.canon [(⟨rHi, w1⟩ : View.Piece Val S2x200x256 .f32), ⟨rLo, w0⟩] (ix3 (0 : Fin 2) r cc)
      = w0 (ix3 (0 : Fin 1) r cc) := by
  rw [View.canon_cons_of_not_mem (⟨rHi, w1⟩ : View.Piece Val S2x200x256 .f32) [⟨rLo, w0⟩] (lo_not_mem_hi r cc)]
  have e : ix3 (0 : Fin 2) r cc = rLo.emb (ix3 (0 : Fin 1) r cc) := (emb_lo r cc).symm
  rw [e]
  exact View.canon_cons_emb rLo w0 _ _

/-- What the first point leaves in the scratch: the projection of the staged features by W2. -/
theorem sout_A_eq (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : cond0_0 i) (x1 : Vec F S1x200x10000 .f32) (x2 : Vec F S1x200x10000 .f32) (x3 : Vec F S10000x256 .f32) (x4 : Vec F S512x256 .f32) :
    sout_A c i arg1 harg1 arg2 harg2 arg3 harg3 arg4 harg4 arg5 harg5 arg6 harg6 hc0 x1 x2 x3 x4 = k0_pay2 (w2Of x4) x3 := by
  unfold sout_A
  rw [View.read_writes_eq_canon _ _ _ (scover_A c i arg1 harg1 arg2 harg2 arg3 harg3 arg4 harg4 arg5 harg5 arg6 harg6 hc0 x1 x2 x3 x4)]
  unfold kernelRun0_A
  dsimp only
  try sl_unfold_words
  rw [View.canon_unit_zero hz2]
  simp only [View.readAt_eq_ld, harg3.read_unread, harg4.read_unread, View.ld_unit_zero (S := S10000x256) hz2]

/-- Slab 1 after the first point. -/
theorem out5_A_hi (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : cond0_0 i) (x1 : Vec F S1x200x10000 .f32) (x2 : Vec F S1x200x10000 .f32) (x3 : Vec F S10000x256 .f32) (x4 : Vec F S512x256 .f32) (r : Fin 200) (cc : Fin 256) :
    out5_A c i arg1 harg1 arg2 harg2 arg3 harg3 arg4 harg4 arg5 harg5 arg6 harg6 hc0 x1 x2 x3 x4 (ix3 (1 : Fin 2) r cc)
      = k0_pay1 (k0_pay4 (w1Of x4) (rowsHi i x3) x2 (k0_pay2 (w2Of x4) x3)) (ix3 (0 : Fin 1) r cc) := by
  unfold out5_A
  rw [View.read_writes_eq_canon _ _ _ (cover5_A c i arg1 harg1 arg2 harg2 arg3 harg3 arg4 harg4 arg5 harg5 arg6 harg6 hc0 x1 x2 x3 x4)]
  unfold kernelRun0_A
  dsimp only
  try sl_unfold_words
  refine (canon_two_hi _ _ r cc).trans ?_
  simp only [View.readAt_eq_ld, harg2.read_unread, harg3.read_unread, harg4.read_unread,
    View.ld_unit_zero (S := S10000x256) hz2, View.ld_unit_zero (S := S1x200x10000) hz3,
    View.readCov_unit_zero (S := S10000x256) _ hz2]
  rfl

/-- Slab 0 after the first point. -/
theorem out5_A_lo (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : cond0_0 i) (x1 : Vec F S1x200x10000 .f32) (x2 : Vec F S1x200x10000 .f32) (x3 : Vec F S10000x256 .f32) (x4 : Vec F S512x256 .f32) (r : Fin 200) (cc : Fin 256) :
    out5_A c i arg1 harg1 arg2 harg2 arg3 harg3 arg4 harg4 arg5 harg5 arg6 harg6 hc0 x1 x2 x3 x4 (ix3 (0 : Fin 2) r cc)
      = k0_pay3 (w1Of x4) (rowsLo i x3) x1 (k0_pay2 (w2Of x4) x3) (ix3 (0 : Fin 1) r cc) := by
  unfold out5_A
  rw [View.read_writes_eq_canon _ _ _ (cover5_A c i arg1 harg1 arg2 harg2 arg3 harg3 arg4 harg4 arg5 harg5 arg6 harg6 hc0 x1 x2 x3 x4)]
  unfold kernelRun0_A
  dsimp only
  try sl_unfold_words
  refine (canon_two_lo _ _ r cc).trans ?_
  simp only [View.readAt_eq_ld, harg1.read_unread, harg3.read_unread, harg4.read_unread,
    View.ld_unit_zero (S := S10000x256) hz2, View.ld_unit_zero (S := S1x200x10000) hz3,
    View.readCov_unit_zero (S := S10000x256) _ hz2]
  rfl

/-- Slab 1 after a later point: the scratch is read as it was found. -/
theorem out5_B_hi (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : ¬cond0_0 i) (x1 : Vec F S1x200x10000 .f32) (x2 : Vec F S1x200x10000 .f32) (x3 : Vec F S10000x256 .f32) (x4 : Vec F S512x256 .f32) (xs : Vec F S10000x256 .f32) (r : Fin 200) (cc : Fin 256) :
    out5_B c i arg1 harg1 arg2 harg2 arg3 harg3 arg4 harg4 arg5 harg5 arg6 harg6 hc0 x1 x2 x3 x4 xs (ix3 (1 : Fin 2) r cc)
      = k0_pay1 (k0_pay4 (w1Of x4) (rowsHi i x3) x2 xs) (ix3 (0 : Fin 1) r cc) := by
  unfold out5_B
  rw [View.read_writes_eq_canon _ _ _ (cover5_B c i arg1 harg1 arg2 harg2 arg3 harg3 arg4 harg4 arg5 harg5 arg6 harg6 hc0 x1 x2 x3 x4 xs)]
  unfold kernelRun0_B
  dsimp only
  try sl_unfold_words
  refine (canon_two_hi _ _ r cc).trans ?_
  simp only [View.readAt_eq_ld, harg2.read_unread, harg3.read_unread, harg4.read_unread, harg6.read_unread,
    View.ld_unit_zero (S := S10000x256) hz2, View.ld_unit_zero (S := S1x200x10000) hz3]
  rfl

/-- Slab 0 after a later point. -/
theorem out5_B_lo (c : Dev nD) (i : grid0.Coords) (arg1 : Memref sig .tc .vmem S1x200x10000 .f32) (harg1 : arg1.IsWhole) (arg2 : Memref sig .tc .vmem S1x200x10000 .f32) (harg2 : arg2.IsWhole)
    (arg3 : Memref sig .tc .vmem S10000x256 .f32) (harg3 : arg3.IsWhole) (arg4 : Memref sig .tc .vmem S512x256 .f32) (harg4 : arg4.IsWhole)
    (arg5 : Memref sig .tc .vmem S2x200x256 .f32) (harg5 : arg5.IsWhole) (arg6 : Memref sig .tc .vmem S10000x256 .f32) (harg6 : arg6.IsWhole) (hc0 : ¬cond0_0 i) (x1 : Vec F S1x200x10000 .f32) (x2 : Vec F S1x200x10000 .f32) (x3 : Vec F S10000x256 .f32) (x4 : Vec F S512x256 .f32) (xs : Vec F S10000x256 .f32) (r : Fin 200) (cc : Fin 256) :
    out5_B c i arg1 harg1 arg2 harg2 arg3 harg3 arg4 harg4 arg5 harg5 arg6 harg6 hc0 x1 x2 x3 x4 xs (ix3 (0 : Fin 2) r cc)
      = k0_pay3 (w1Of x4) (rowsLo i x3) x1 xs (ix3 (0 : Fin 1) r cc) := by
  unfold out5_B
  rw [View.read_writes_eq_canon _ _ _ (cover5_B c i arg1 harg1 arg2 harg2 arg3 harg3 arg4 harg4 arg5 harg5 arg6 harg6 hc0 x1 x2 x3 x4 xs)]
  unfold kernelRun0_B
  dsimp only
  try sl_unfold_words
  refine (canon_two_lo _ _ r cc).trans ?_
  simp only [View.readAt_eq_ld, harg1.read_unread, harg3.read_unread, harg4.read_unread, harg6.read_unread,
    View.ld_unit_zero (S := S10000x256) hz2, View.ld_unit_zero (S := S1x200x10000) hz3]
  rfl

end Cert.KernelIdeal.SageValue

end
-- ==== Proof.KernelPayloads.lean ====
/-
  The kernel's stored values, read entry by entry on extended reals. Each is built from matrix products into a zero
  accumulator, so a product's entry (r, c) is the plain sum over k of (left entry (r, k)) * (right entry (k, c));
  around the products sit shape casts that add or drop a leading axis of extent one, and one addition.

    projection   P = x W2                      entry (j, c):  sum_k x(j,k) W2(k,c)
    row block    xb W1 + ab P                  entry (r, c):  sum_k xb(r,k) W1(k,c) + sum_j ab(0,r,j) P(j,c)

  The three products are read through their dimension numbers (contract axis 1 of the left operand with axis 0 of the
  right one), the contraction index being re-indexed by its one coordinate.
-/
import proofs.«111192_g72069551227474_cont_9to1c4b_720_10_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-! ## The product [10000,256] x [256,256] -/

theorem xw_lhs0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem xw_rhs1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- Entry (j, c) of the product of a [10000,256] matrix with a [256,256] one into zero. -/
theorem xw_apply (lhs : FVec Ideal S10000x256 .f32) (rhs : FVec Ideal S256x256 .f32) (j : Fin 10000) (c : Fin 256) :
    matmul (F := Ideal) dot_S10000x256_S256x256_S10000x256_1_0_0_1_n_n none lhs rhs (constant (F := Ideal) S10000x256 .f32 0x00000000#32) (ix2 j c)
      = ∑ k : Fin 256, lhs (ix2 j k) * rhs (ix2 k c) := by
  refine (Ideal.matmul_constant_zero_apply dot_S10000x256_S256x256_S10000x256_1_0_0_1_n_n none lhs rhs (ix2 j c)).trans ?_
  rw [← Equiv.sum_comp (ValueIdx.contrEquiv1 dot_S10000x256_S256x256_S10000x256_1_0_0_1_n_n 256 rfl rfl).symm]
  refine Finset.sum_congr rfl fun k _ => ?_
  have hk := ValueIdx.contrEquiv1_symm_val dot_S10000x256_S256x256_S10000x256_1_0_0_1_n_n 256 rfl rfl k
  have el : dot_S10000x256_S256x256_S10000x256_1_0_0_1_n_n.lhsIdx (ix2 j c) ((ValueIdx.contrEquiv1 dot_S10000x256_S256x256_S10000x256_1_0_0_1_n_n 256 rfl rfl).symm k) = ix2 j k := funext fun a => Fin.ext (by
    match a with
    | ⟨0, _⟩ => exact xw_lhs0 _ _
    | ⟨1, _⟩ => exact (dot_S10000x256_S256x256_S10000x256_1_0_0_1_n_n.lhsIdx_val_of_single rfl _ _).trans hk)
  have er : dot_S10000x256_S256x256_S10000x256_1_0_0_1_n_n.rhsIdx (ix2 j c) ((ValueIdx.contrEquiv1 dot_S10000x256_S256x256_S10000x256_1_0_0_1_n_n 256 rfl rfl).symm k) = ix2 k c := funext fun a => Fin.ext (by
    match a with
    | ⟨0, _⟩ => exact (dot_S10000x256_S256x256_S10000x256_1_0_0_1_n_n.rhsIdx_val_of_single rfl _ _).trans hk
    | ⟨1, _⟩ => exact xw_rhs1 _ _)
  rw [el, er]

/-! ## The product [200,256] x [256,256] -/

theorem bw_lhs0 (i : S200x256.Idx) (q : dot_S200x256_S256x256_S200x256_1_0_0_1_n_n.contr.Idx) :
    (dot_S200x256_S256x256_S200x256_1_0_0_1_n_n.lhsIdx i q 0).val = (i 0).val := by
  unfold DotDims.lhsIdx
  rw [dif_neg (show ¬(0 : Fin S200x256.rank) ∈ dot_S200x256_S256x256_S200x256_1_0_0_1_n_n.lhsBatch by decide), dif_pos (show (0 : Fin S200x256.rank) ∈ dot_S200x256_S256x256_S200x256_1_0_0_1_n_n.lhsNonContracting by decide)]
  rfl
theorem bw_rhs1 (i : S200x256.Idx) (q : dot_S200x256_S256x256_S200x256_1_0_0_1_n_n.contr.Idx) :
    (dot_S200x256_S256x256_S200x256_1_0_0_1_n_n.rhsIdx i q 1).val = (i 1).val := by
  unfold DotDims.rhsIdx
  rw [dif_neg (show ¬(1 : Fin S256x256.rank) ∈ dot_S200x256_S256x256_S200x256_1_0_0_1_n_n.rhsBatch by decide), dif_pos (show (1 : Fin S256x256.rank) ∈ dot_S200x256_S256x256_S200x256_1_0_0_1_n_n.rhsNonContracting by decide)]
  rfl

/-- Entry (r, c) of the product of a [200,256] matrix with a [256,256] one into zero. -/
theorem bw_apply (lhs : FVec Ideal S200x256 .f32) (rhs : FVec Ideal S256x256 .f32) (r : Fin 200) (c : Fin 256) :
    matmul (F := Ideal) dot_S200x256_S256x256_S200x256_1_0_0_1_n_n none lhs rhs (constant (F := Ideal) S200x256 .f32 0x00000000#32) (ix2 r c)
      = ∑ k : Fin 256, lhs (ix2 r k) * rhs (ix2 k c) := by
  refine (Ideal.matmul_constant_zero_apply dot_S200x256_S256x256_S200x256_1_0_0_1_n_n none lhs rhs (ix2 r c)).trans ?_
  rw [← Equiv.sum_comp (ValueIdx.contrEquiv1 dot_S200x256_S256x256_S200x256_1_0_0_1_n_n 256 rfl rfl).symm]
  refine Finset.sum_congr rfl fun k _ => ?_
  have hk := ValueIdx.contrEquiv1_symm_val dot_S200x256_S256x256_S200x256_1_0_0_1_n_n 256 rfl rfl k
  have el : dot_S200x256_S256x256_S200x256_1_0_0_1_n_n.lhsIdx (ix2 r c) ((ValueIdx.contrEquiv1 dot_S200x256_S256x256_S200x256_1_0_0_1_n_n 256 rfl rfl).symm k) = ix2 r k := funext fun a => Fin.ext (by
    match a with
    | ⟨0, _⟩ => exact bw_lhs0 _ _
    | ⟨1, _⟩ => exact (dot_S200x256_S256x256_S200x256_1_0_0_1_n_n.lhsIdx_val_of_single rfl _ _).trans hk)
  have er : dot_S200x256_S256x256_S200x256_1_0_0_1_n_n.rhsIdx (ix2 r c) ((ValueIdx.contrEquiv1 dot_S200x256_S256x256_S200x256_1_0_0_1_n_n 256 rfl rfl).symm k) = ix2 k c := funext fun a => Fin.ext (by
    match a with
    | ⟨0, _⟩ => exact (dot_S200x256_S256x256_S200x256_1_0_0_1_n_n.rhsIdx_val_of_single rfl _ _).trans hk
    | ⟨1, _⟩ => exact bw_rhs1 _ _)
  rw [el, er]

/-! ## The product [200,10000] x [10000,256] -/

theorem ap_lhs0 (i : S200x256.Idx) (q : dot_S200x10000_S10000x256_S200x256_1_0_0_1_n_n.contr.Idx) :
    (dot_S200x10000_S10000x256_S200x256_1_0_0_1_n_n.lhsIdx i q 0).val = (i 0).val := by
  unfold DotDims.lhsIdx
  rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
  rfl
theorem ap_rhs1 (i : S200x256.Idx) (q : dot_S200x10000_S10000x256_S200x256_1_0_0_1_n_n.contr.Idx) :
    (dot_S200x10000_S10000x256_S200x256_1_0_0_1_n_n.rhsIdx i q 1).val = (i 1).val := by
  unfold DotDims.rhsIdx
  rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
  rfl

/-- Entry (r, c) of the product of a [200,10000] matrix with a [10000,256] one into zero. -/
theorem ap_apply (lhs : FVec Ideal S200x10000 .f32) (rhs : FVec Ideal S10000x256 .f32) (r : Fin 200) (c : Fin 256) :
    matmul (F := Ideal) dot_S200x10000_S10000x256_S200x256_1_0_0_1_n_n none lhs rhs (constant (F := Ideal) S200x256 .f32 0x00000000#32) (ix2 r c)
      = ∑ j : Fin 10000, lhs (ix2 r j) * rhs (ix2 j c) := by
  refine (Ideal.matmul_constant_zero_apply dot_S200x10000_S10000x256_S200x256_1_0_0_1_n_n none lhs rhs (ix2 r c)).trans ?_
  rw [← Equiv.sum_comp (ValueIdx.contrEquiv1 dot_S200x10000_S10000x256_S200x256_1_0_0_1_n_n 10000 rfl rfl).symm]
  refine Finset.sum_congr rfl fun k _ => ?_
  have hk := ValueIdx.contrEquiv1_symm_val dot_S200x10000_S10000x256_S200x256_1_0_0_1_n_n 10000 rfl rfl k
  have el : dot_S200x10000_S10000x256_S200x256_1_0_0_1_n_n.lhsIdx (ix2 r c) ((ValueIdx.contrEquiv1 dot_S200x10000_S10000x256_S200x256_1_0_0_1_n_n 10000 rfl rfl).symm k) = ix2 r k := funext fun a => Fin.ext (by
    match a with
    | ⟨0, _⟩ => exact ap_lhs0 _ _
    | ⟨1, _⟩ => exact (dot_S200x10000_S10000x256_S200x256_1_0_0_1_n_n.lhsIdx_val_of_single rfl _ _).trans hk)
  have er : dot_S200x10000_S10000x256_S200x256_1_0_0_1_n_n.rhsIdx (ix2 r c) ((ValueIdx.contrEquiv1 dot_S200x10000_S10000x256_S200x256_1_0_0_1_n_n 10000 rfl rfl).symm k) = ix2 k c := funext fun a => Fin.ext (by
    match a with
    | ⟨0, _⟩ => exact (dot_S200x10000_S10000x256_S200x256_1_0_0_1_n_n.rhsIdx_val_of_single rfl _ _).trans hk
    | ⟨1, _⟩ => exact ap_rhs1 _ _)
  rw [el, er]

/-! ## The payloads -/

/-- The projection P = x W2 at (j, c). -/
theorem pay2_apply (w2 : Vec Ideal S256x256 .f32) (x : Vec Ideal S10000x256 .f32) (j : Fin 10000) (c : Fin 256) :
    k0_pay2 (F := Ideal) w2 x (ix2 j c) = ∑ k : Fin 256, x (ix2 j k) * w2 (ix2 k c) := by
  unfold k0_pay2
  refine (congrFun (shapeCast_self _ _) (ix2 j c)).trans ?_
  exact xw_apply x w2 j c

/-- The row block before its leading unit axis is added: xb W1 + ab P at (r, c). -/
theorem pay4_apply (w1 : Vec Ideal S256x256 .f32) (xb : Vec Ideal S200x256 .f32) (ab : Vec Ideal S1x200x10000 .f32)
    (p : Vec Ideal S10000x256 .f32) (r : Fin 200) (c : Fin 256) :
    k0_pay4 (F := Ideal) w1 xb ab p (ix2 r c)
      = (∑ k : Fin 256, xb (ix2 r k) * w1 (ix2 k c)) + ∑ j : Fin 10000, ab (ix3 (0 : Fin 1) r j) * p (ix2 j c) := by
  unfold k0_pay4
  refine (addf_apply _ _ (ix2 r c)).trans ?_
  refine congrArg₂ (fun a b : EReal => a + b) (bw_apply xb w1 r c) ?_
  refine (ap_apply _ p r c).trans ?_
  exact Finset.sum_congr rfl fun j _ =>
    congrArg (fun t : EReal => t * p (ix2 j c)) (shapeCast_1ab_ab_apply ab shapeCasts_S1x200x10000_S200x10000 r j)

/-- The row block with its leading unit axis: xb W1 + ab P at (0, r, c). -/
theorem pay14_apply (w1 : Vec Ideal S256x256 .f32) (xb : Vec Ideal S200x256 .f32) (ab : Vec Ideal S1x200x10000 .f32)
    (p : Vec Ideal S10000x256 .f32) (r : Fin 200) (c : Fin 256) :
    k0_pay1 (F := Ideal) (k0_pay4 (F := Ideal) w1 xb ab p) (ix3 (0 : Fin 1) r c)
      = (∑ k : Fin 256, xb (ix2 r k) * w1 (ix2 k c)) + ∑ j : Fin 10000, ab (ix3 (0 : Fin 1) r j) * p (ix2 j c) := by
  unfold k0_pay1
  exact (shapeCast_ab_1ab_apply _ shapeCasts_S200x256_S1x200x256 (0 : Fin 1) r c).trans (pay4_apply w1 xb ab p r c)

/-- The same value as the kernel spells it where the addition and the cast are one payload. -/
theorem pay3_apply (w1 : Vec Ideal S256x256 .f32) (xb : Vec Ideal S200x256 .f32) (ab : Vec Ideal S1x200x10000 .f32)
    (p : Vec Ideal S10000x256 .f32) (r : Fin 200) (c : Fin 256) :
    k0_pay3 (F := Ideal) w1 xb ab p (ix3 (0 : Fin 1) r c)
      = (∑ k : Fin 256, xb (ix2 r k) * w1 (ix2 k c)) + ∑ j : Fin 10000, ab (ix3 (0 : Fin 1) r j) * p (ix2 j c) :=
  pay14_apply w1 xb ab p r c

end Cert.KernelIdeal.Pay

end
-- ==== Proof.Spec.lean ====
/-
  The mathematics of the GraphSAGE layer, stated once with no program in sight.

  Inputs: node features x (10000 x 256), a dense adjacency A (10000 x 10000) and a weight W (512 x 256) whose
  first 256 rows (W1) multiply a node's own features and whose last 256 rows (W2) multiply the aggregated
  neighbour features. The layer is  out = [x | A x] W = x W1 + (A x) W2.  The kernel computes it in the
  re-associated form  out = x W1 + A (x W2):  the projection  P = x W2  (10000 x 256) is formed first and the
  big product with A is taken against P. `sage` below is that second form, entry by entry, on extended reals.
-/
import Idealize.ShloMosaic.PureOps.Ideal
import Idealize.ShloMosaic.Lib.ValueIdx

noncomputable section

namespace Cert.Sage

open Idealize.ShloMosaic Idealize.ShloMosaic.ValueIdx

/-- The shape of the features and of the result. -/
abbrev SX : Shape := ⟨2, ![10000, 256]⟩
/-- The shape of the adjacency. -/
abbrev SA : Shape := ⟨2, ![10000, 10000]⟩
/-- The shape of the weight: W1 stacked on W2. -/
abbrev SW : Shape := ⟨2, ![512, 256]⟩

/-- Row `k` of W1 as a row of W. -/
abbrev wLo (k : Fin 256) : Fin 512 := ⟨k.val, by omega⟩
/-- Row `k` of W2 as a row of W. -/
abbrev wHi (k : Fin 256) : Fin 512 := ⟨256 + k.val, by omega⟩

/-- The projection P = x W2 at row `j`, column `c`. -/
def proj (x : SX.Idx → EReal) (w : SW.Idx → EReal) (j : Fin 10000) (c : Fin 256) : EReal :=
  ∑ k : Fin 256, x (ix2 j k) * w (ix2 (wHi k) c)

/-- The self term x W1 at row `r`, column `c`. -/
def selfTerm (x : SX.Idx → EReal) (w : SW.Idx → EReal) (r : Fin 10000) (c : Fin 256) : EReal :=
  ∑ k : Fin 256, x (ix2 r k) * w (ix2 (wLo k) c)

/-- The neighbour term A P at row `r`, column `c`. -/
def nbrTerm (x : SX.Idx → EReal) (adj : SA.Idx → EReal) (w : SW.Idx → EReal) (r : Fin 10000) (c : Fin 256) : EReal :=
  ∑ j : Fin 10000, adj (ix2 r j) * proj x w j c

/-- The layer in the kernel's association: out = x W1 + A (x W2). -/
def sage (x : SX.Idx → EReal) (adj : SA.Idx → EReal) (w : SW.Idx → EReal) : SX.Idx → EReal :=
  fun i => selfTerm x w (i 0) (i 1) + nbrTerm x adj w (i 0) (i 1)

end Cert.Sage

end
-- ==== Proof.KernelValueFinal.lean ====
/-
  The kernel's result array, on extended reals, is the GraphSAGE layer.

  At every grid point the body stores into the two slabs of the output buffer  x[band] W1 + A[band] P,  where P = x W2
  is the projection the first point left in the scratch: at the first point the second product reads the value just
  stored, at a later point what the scratch has held since. With the staged blocks named by their rows (the upper band
  is rows 200 t .. 200 t + 199, the lower band rows 5000 + 200 t .. 5000 + 200 t + 199, the adjacency rows through
  the reshape into two halves) each slab entry is the layer  selfTerm + nbrTerm  at its row. Point t writes back block
  t of each half of the result; the 25 blocks cover the array (row R of either half lies in block R / 200), so the
  array ends holding the layer everywhere.
-/
import proofs.«111192_g72069551227474_cont_9to1c4b_720_10_alg».proof.Proof.KernelValueBlocks
import proofs.«111192_g72069551227474_cont_9to1c4b_720_10_alg».proof.Proof.KernelValuePieces
import proofs.«111192_g72069551227474_cont_9to1c4b_720_10_alg».proof.Proof.KernelPayloads
import proofs.«111192_g72069551227474_cont_9to1c4b_720_10_alg».proof.Proof.Reshapes
import proofs.«111192_g72069551227474_cont_9to1c4b_720_10_alg».proof.Proof.Spec
import Idealize.ShloMosaic.Lib.Pipeline.Value
import Idealize.ShloMosaic.Lib.Tactic

set_option maxRecDepth 16384

noncomputable section

namespace Cert.KernelIdeal.SageValue

open Cert.KernelIdeal Cert.KernelIdeal.Gen Cert.KernelIdeal.Sage
open Idealize.ShloMosaic Idealize.ShloMosaic.TcCoe Idealize.ShloMosaic.Tactic Idealize.ShloMosaic.ValueIdx
open Idealize.SL Idealize.SL.Sem
open Idealize.ShloMosaic.Pipeline (Dat)

open Cert.Sage Cert.KernelIdeal.Pay

/-! ## What the body's loads read, entry by entry -/

section Loads
variable {F : FTy → Type} [FloatOps F]

/-- Row k of W1 is row k of the weight. -/
theorem w1Of_apply (x4 : Vec F S512x256 .f32) (k cc : Fin 256) : w1Of x4 (ix2 k cc) = x4 (ix2 (wLo k) cc) :=
  congrArg x4 (funext fun a => Fin.ext (by
    match a with
    | ⟨0, _⟩ => show 0 + 1 * k.val = k.val; omega
    | ⟨1, _⟩ => show 0 + 1 * cc.val = cc.val; omega))
/-- Row k of W2 is row 256 + k of the weight. -/
theorem w2Of_apply (x4 : Vec F S512x256 .f32) (k cc : Fin 256) : w2Of x4 (ix2 k cc) = x4 (ix2 (wHi k) cc) :=
  congrArg x4 (funext fun a => Fin.ext (by
    match a with
    | ⟨0, _⟩ => show 256 + 1 * k.val = 256 + k.val; omega
    | ⟨1, _⟩ => show 0 + 1 * cc.val = cc.val; omega))
/-- Feature row r of the upper band at point t is row 200 t + r. -/
theorem rowsLo_apply (t : Fin cfg0.N) (x3 : Vec F S10000x256 .f32) (r : Fin 200) (k : Fin 256) :
    rowsLo (grid0.coords t) x3 (ix2 r k) = x3 (ix2 ⟨200 * t.val + r.val, by have := tlt t; omega⟩ k) := by
  obtain ⟨_, _, _, _, _, _, _, _, _, _, _, _, _, o0, o1, _, _⟩ := idx_facts t
  exact congrArg x3 (funext fun a => Fin.ext (by
    match a with
    | ⟨0, _⟩ => show k0_off1 (grid0.coords t) 0 + 1 * r.val = 200 * t.val + r.val; rw [o0]; omega
    | ⟨1, _⟩ => show k0_off1 (grid0.coords t) 1 + 1 * k.val = k.val; rw [o1]; omega))
/-- Feature row r of the lower band at point t is row 5000 + 200 t + r. -/
theorem rowsHi_apply (t : Fin cfg0.N) (x3 : Vec F S10000x256 .f32) (r : Fin 200) (k : Fin 256) :
    rowsHi (grid0.coords t) x3 (ix2 r k) = x3 (ix2 ⟨5000 + 200 * t.val + r.val, by have := tlt t; omega⟩ k) := by
  obtain ⟨_, _, _, _, _, _, _, _, _, _, _, _, _, _, _, o0, o1⟩ := idx_facts t
  exact congrArg x3 (funext fun a => Fin.ext (by
    match a with
    | ⟨0, _⟩ => show k0_off2 (grid0.coords t) 0 + 1 * r.val = 5000 + 200 * t.val + r.val; rw [o0]; omega
    | ⟨1, _⟩ => show k0_off2 (grid0.coords t) 1 + 1 * k.val = k.val; rw [o1]; omega))

end Loads

/-! ## The two slabs' values on extended reals -/

/-- The projection payload over the staged features and weight is the layer's projection P = x W2. -/
theorem proj_value (X : SX.Idx → EReal) (W : SW.Idx → EReal) (x3 : Vec Ideal S10000x256 .f32) (x4 : Vec Ideal S512x256 .f32)
    (hX : x3 = X) (hW : x4 = W) (j : Fin 10000) (cc : Fin 256) :
    k0_pay2 (F := Ideal) (w2Of x4) x3 (ix2 j cc) = proj X W j cc := by
  subst hX hW
  exact (pay2_apply (w2Of x4) x3 j cc).trans
    (Finset.sum_congr rfl fun k _ => congrArg (fun t : EReal => x3 (ix2 j k) * t) (w2Of_apply x4 k cc))

/-- x[band] W1 + A[band] P at an entry, with the band's rows named: the layer at that row. -/
theorem band_value (X : SX.Idx → EReal) (Amat : SA.Idx → EReal) (W : SW.Idx → EReal)
    (xb : Vec Ideal S200x256 .f32) (ab : Vec Ideal S1x200x10000 .f32) (P : Vec Ideal S10000x256 .f32)
    (row : Fin 10000) (r : Fin 200) (cc : Fin 256)
    (hxb : ∀ k, xb (ix2 r k) = X (ix2 row k)) (hab : ∀ j, ab (ix3 (0 : Fin 1) r j) = Amat (ix2 row j))
    (hP : ∀ j, P (ix2 j cc) = proj X W j cc) :
    (∑ k : Fin 256, xb (ix2 r k) * (w1Of W) (ix2 k cc)) + ∑ j : Fin 10000, ab (ix3 (0 : Fin 1) r j) * P (ix2 j cc)
      = sage X Amat W (ix2 row cc) := by
  show _ = (∑ k : Fin 256, X (ix2 row k) * W (ix2 (wLo k) cc)) + ∑ j : Fin 10000, Amat (ix2 row j) * proj X W j cc
  refine congrArg₂ (fun a b : EReal => a + b) (Finset.sum_congr rfl fun k _ => ?_) (Finset.sum_congr rfl fun j _ => ?_)
  · exact congrArg₂ (fun a b : EReal => a * b) (hxb k) (w1Of_apply (F := Ideal) W k cc)
  · exact congrArg₂ (fun a b : EReal => a * b) (hab j) (hP j)

/-- Slab 0's payload at point t: the layer at row 200 t + r. -/
theorem slabLo_value (X : SX.Idx → EReal) (Amat : SA.Idx → EReal) (W : SW.Idx → EReal) (t : Fin cfg0.N)
    (x3 : Vec Ideal S10000x256 .f32) (x4 : Vec Ideal S512x256 .f32) (hX : x3 = X) (hW : x4 = W)
    (ab : Vec Ideal S1x200x10000 .f32) (P : Vec Ideal S10000x256 .f32) (r : Fin 200) (cc : Fin 256)
    (hab : ∀ j, ab (ix3 (0 : Fin 1) r j) = Amat (ix2 ⟨200 * t.val + r.val, by have := tlt t; omega⟩ j))
    (hP : ∀ j, P (ix2 j cc) = proj X W j cc) :
    k0_pay3 (F := Ideal) (w1Of x4) (rowsLo (grid0.coords t) x3) ab P (ix3 (0 : Fin 1) r cc)
      = sage X Amat W (ix2 ⟨200 * t.val + r.val, by have := tlt t; omega⟩ cc) := by
  subst hX hW
  exact (pay3_apply (w1Of x4) (rowsLo (grid0.coords t) x3) ab P r cc).trans
    (band_value x3 Amat x4 (rowsLo (grid0.coords t) x3) ab P _ r cc (fun k => rowsLo_apply t x3 r k) hab hP)

/-- Slab 1's payload at point t: the layer at row 5000 + 200 t + r. -/
theorem slabHi_value (X : SX.Idx → EReal) (Amat : SA.Idx → EReal) (W : SW.Idx → EReal) (t : Fin cfg0.N)
    (x3 : Vec Ideal S10000x256 .f32) (x4 : Vec Ideal S512x256 .f32) (hX : x3 = X) (hW : x4 = W)
    (ab : Vec Ideal S1x200x10000 .f32) (P : Vec Ideal S10000x256 .f32) (r : Fin 200) (cc : Fin 256)
    (hab : ∀ j, ab (ix3 (0 : Fin 1) r j) = Amat (ix2 ⟨5000 + 200 * t.val + r.val, by have := tlt t; omega⟩ j))
    (hP : ∀ j, P (ix2 j cc) = proj X W j cc) :
    k0_pay1 (F := Ideal) (k0_pay4 (F := Ideal) (w1Of x4) (rowsHi (grid0.coords t) x3) ab P) (ix3 (0 : Fin 1) r cc)
      = sage X Amat W (ix2 ⟨5000 + 200 * t.val + r.val, by have := tlt t; omega⟩ cc) := by
  subst hX hW
  exact (pay14_apply (w1Of x4) (rowsHi (grid0.coords t) x3) ab P r cc).trans
    (band_value x3 Amat x4 (rowsHi (grid0.coords t) x3) ab P _ r cc (fun k => rowsHi_apply t x3 r k) hab hP)

/-! ## The run's data at F := Ideal -/

section AtIdeal
variable (m : (ℓ : Loc nD τ sig) → Buf (Elt Ideal) ℓ)

/-- The features, the adjacency and the weight at launch. -/
abbrev X (c : Dev nD) : SX.Idx → EReal := m ((c : Thread nD τ).loc main_arg0)
abbrev A (c : Dev nD) : SA.Idx → EReal := m ((c : Thread nD τ).loc main_arg1)
abbrev W (c : Dev nD) : SW.Idx → EReal := m ((c : Thread nD τ).loc main_arg2)

/-- The staged features are the features, the staged weight the weight. -/
theorem stagedX (c : Dev nD) (t : Fin cfg0.N) : (iblk m c 2 t : Vec Ideal S10000x256 .f32) = X m c :=
  (iblk2_eq m c t).trans (V_arg0 m c)
theorem stagedW (c : Dev nD) (t : Fin cfg0.N) : (iblk m c 3 t : Vec Ideal S512x256 .f32) = W m c :=
  (iblk3_eq m c t).trans (V_arg2 m c)

/-- Row r of the staged upper band at point t is row 200 t + r of the adjacency. -/
theorem bandLo (c : Dev nD) (t : Fin cfg0.N) (r : Fin 200) (j : Fin 10000) :
    (iblk m c 0 t : Vec Ideal S1x200x10000 .f32) (ix3 (0 : Fin 1) r j)
      = A m c (ix2 ⟨200 * t.val + r.val, by have := tlt t; omega⟩ j) :=
  by
  refine (iblk0_apply m c t r j).trans ?_
  refine (congrFun (V_v0 m c) _).trans ?_
  refine (Reshape.reshape_in_apply (F := Ideal) (A m c) (0 : Fin 2) ⟨200 * t.val + r.val, by have := tlt t; omega⟩ j).trans ?_
  exact congrArg (A m c) (congrArg (fun R : Fin 10000 => ix2 R j)
    (Fin.ext (by show 5000 * 0 + (200 * t.val + r.val) = 200 * t.val + r.val; omega)))
/-- Row r of the staged lower band at point t is row 5000 + 200 t + r of the adjacency. -/
theorem bandHi (c : Dev nD) (t : Fin cfg0.N) (r : Fin 200) (j : Fin 10000) :
    (iblk m c 1 t : Vec Ideal S1x200x10000 .f32) (ix3 (0 : Fin 1) r j)
      = A m c (ix2 ⟨5000 + 200 * t.val + r.val, by have := tlt t; omega⟩ j) :=
  by
  refine (iblk1_apply m c t r j).trans ?_
  refine (congrFun (V_v0 m c) _).trans ?_
  refine (Reshape.reshape_in_apply (F := Ideal) (A m c) (1 : Fin 2) ⟨200 * t.val + r.val, by have := tlt t; omega⟩ j).trans ?_
  exact congrArg (A m c) (congrArg (fun R : Fin 10000 => ix2 R j)
    (Fin.ext (by show 5000 * 1 + (200 * t.val + r.val) = 5000 + 200 * t.val + r.val; omega)))

/-- The scratch holds the projection from the first point on. -/
theorem scr_apply (c : Dev nD) (j : Fin 10000) (cc : Fin 256) : scr m c (ix2 j cc) = proj (X m c) (W m c) j cc := by
  unfold scr
  refine (congrFun (sout_A_eq c (grid0.coords t00) (ms0_0 t00) (hs0_0 t00) (ms0_1 t00) (hs0_1 t00) (ms0_2 t00) (hs0_2 t00) (ms0_3 t00) (hs0_3 t00) (ms0_4 t00) (hs0_4 t00) scM (Memref.isWhole_whole _) ((hcond0_0 t00).mpr rfl) (iblk m c 0 t00) (iblk m c 1 t00) (iblk m c 2 t00) (iblk m c 3 t00)) (ix2 j cc)).trans ?_
  exact proj_value (X m c) (W m c) (iblk m c 2 t00) (iblk m c 3 t00) (stagedX m c t00) (stagedW m c t00) j cc

/-- Slab 0 of the output buffer after the body at point t. -/
theorem outAt_lo (c : Dev nD) (t : Fin cfg0.N) (r : Fin 200) (cc : Fin 256) :
    outAt m c t (ix3 (0 : Fin 2) r cc)
      = sage (X m c) (A m c) (W m c) (ix2 ⟨200 * t.val + r.val, by have := tlt t; omega⟩ cc) := by
  unfold outAt
  by_cases h : t.val = 0
  · rw [dif_pos h]
    refine (out5_A_lo c (grid0.coords t) (ms0_0 t) (hs0_0 t) (ms0_1 t) (hs0_1 t) (ms0_2 t) (hs0_2 t) (ms0_3 t) (hs0_3 t) (ms0_4 t) (hs0_4 t) scM (Memref.isWhole_whole _) ((hcond0_0 t).mpr h) (iblk m c 0 t) (iblk m c 1 t) (iblk m c 2 t) (iblk m c 3 t) r cc).trans ?_
    exact slabLo_value (X m c) (A m c) (W m c) t (iblk m c 2 t) (iblk m c 3 t) (stagedX m c t) (stagedW m c t) (iblk m c 0 t)
      (k0_pay2 (F := Ideal) (w2Of (iblk m c 3 t)) (iblk m c 2 t)) r cc (bandLo m c t r)
      (fun j => proj_value (X m c) (W m c) (iblk m c 2 t) (iblk m c 3 t) (stagedX m c t) (stagedW m c t) j cc)
  · rw [dif_neg h]
    refine (out5_B_lo c (grid0.coords t) (ms0_0 t) (hs0_0 t) (ms0_1 t) (hs0_1 t) (ms0_2 t) (hs0_2 t) (ms0_3 t) (hs0_3 t) (ms0_4 t) (hs0_4 t) scM (Memref.isWhole_whole _) (fun hc => h ((hcond0_0 t).mp hc)) (iblk m c 0 t) (iblk m c 1 t) (iblk m c 2 t) (iblk m c 3 t) (scr m c) r cc).trans ?_
    exact slabLo_value (X m c) (A m c) (W m c) t (iblk m c 2 t) (iblk m c 3 t) (stagedX m c t) (stagedW m c t) (iblk m c 0 t)
      (scr m c) r cc (bandLo m c t r) (fun j => scr_apply m c j cc)

/-- Slab 1 of the output buffer after the body at point t. -/
theorem outAt_hi (c : Dev nD) (t : Fin cfg0.N) (r : Fin 200) (cc : Fin 256) :
    outAt m c t (ix3 (1 : Fin 2) r cc)
      = sage (X m c) (A m c) (W m c) (ix2 ⟨5000 + 200 * t.val + r.val, by have := tlt t; omega⟩ cc) := by
  unfold outAt
  by_cases h : t.val = 0
  · rw [dif_pos h]
    refine (out5_A_hi c (grid0.coords t) (ms0_0 t) (hs0_0 t) (ms0_1 t) (hs0_1 t) (ms0_2 t) (hs0_2 t) (ms0_3 t) (hs0_3 t) (ms0_4 t) (hs0_4 t) scM (Memref.isWhole_whole _) ((hcond0_0 t).mpr h) (iblk m c 0 t) (iblk m c 1 t) (iblk m c 2 t) (iblk m c 3 t) r cc).trans ?_
    exact slabHi_value (X m c) (A m c) (W m c) t (iblk m c 2 t) (iblk m c 3 t) (stagedX m c t) (stagedW m c t) (iblk m c 1 t)
      (k0_pay2 (F := Ideal) (w2Of (iblk m c 3 t)) (iblk m c 2 t)) r cc (bandHi m c t r)
      (fun j => proj_value (X m c) (W m c) (iblk m c 2 t) (iblk m c 3 t) (stagedX m c t) (stagedW m c t) j cc)
  · rw [dif_neg h]
    refine (out5_B_hi c (grid0.coords t) (ms0_0 t) (hs0_0 t) (ms0_1 t) (hs0_1 t) (ms0_2 t) (hs0_2 t) (ms0_3 t) (hs0_3 t) (ms0_4 t) (hs0_4 t) scM (Memref.isWhole_whole _) (fun hc => h ((hcond0_0 t).mp hc)) (iblk m c 0 t) (iblk m c 1 t) (iblk m c 2 t) (iblk m c 3 t) (scr m c) r cc).trans ?_
    exact slabHi_value (X m c) (A m c) (W m c) t (iblk m c 2 t) (iblk m c 3 t) (stagedX m c t) (stagedW m c t) (iblk m c 1 t)
      (scr m c) r cc (bandHi m c t r) (fun j => scr_apply m c j cc)

end AtIdeal

/-! ## From the blocks to the result array -/

section Array
variable (m : (ℓ : Loc nD τ sig) → Buf (Elt Ideal) ℓ)

/-- Row R of half s of the result is row 5000 s + R of the layer. -/
abbrev rowOf (s : Fin 2) (R : Fin 5000) : Fin 10000 := ⟨5000 * s.val + R.val, by omega⟩

/-- The result array: the layer, as two halves of 5000 rows. -/
def G (c : Dev nD) : S2x5000x256.Idx → EReal :=
  fun i => sage (X m c) (A m c) (W m c) (ix2 (rowOf (i 0) (i 1)) (i 2))

/-- The output buffer after the body at point t holds the layer's rows 200 t .. 200 t + 199 of each half. -/
theorem outAt_apply (c : Dev nD) (t : Fin cfg0.N) (s : Fin 2) (r : Fin 200) (cc : Fin 256) :
    outAt m c t (ix3 s r cc)
      = sage (X m c) (A m c) (W m c) (ix2 (rowOf s ⟨200 * t.val + r.val, by have := tlt t; omega⟩) cc) := by
  match s with
  | ⟨0, _⟩ =>
    exact (outAt_lo m c t r cc).trans (congrArg (fun R : Fin 10000 => sage (X m c) (A m c) (W m c) (ix2 R cc))
      (Fin.ext (by show 200 * t.val + r.val = 5000 * 0 + (200 * t.val + r.val); omega)))
  | ⟨1, _⟩ =>
    exact (outAt_hi m c t r cc).trans (congrArg (fun R : Fin 10000 => sage (X m c) (A m c) (W m c) (ix2 R cc))
      (Fin.ext (by show 5000 + 200 * t.val + r.val = 5000 * 1 + (200 * t.val + r.val); omega)))

/-- What point t writes back is block t of the result array. -/
theorem flushed_eq (c : Dev nD) (t : Fin cfg0.N) :
    (dats m 0 c).flushed 4 t = ((cfg0.win 4).blk t).view.read (Elt Ideal) (G m c) := by
  obtain ⟨_, _, _, _, _, _, _, _, _, _, e0, e1, e2, _⟩ := idx_facts t
  show (cfg0.win 4).cut (grid0.coords t) ((dats m 0 c).after 4 t) = _
  rw [after0_4]
  funext j
  obtain ⟨s, r, cc, rfl⟩ : ∃ (s : Fin 2) (r : Fin 200) (cc : Fin 256), j = ix3 s r cc := ⟨j 0, j 1, j 2, eq_ix3 j⟩
  rw [View.read_apply]
  show outAt m c t (ix3 s r cc) = G m c (((cfg0.win 4).blk t).view.emb (ix3 s r cc))
  have e : ((cfg0.win 4).blk t).view.emb (ix3 s r cc)
      = (ix3 s (⟨200 * t.val + r.val, by have := tlt t; omega⟩ : Fin 5000) cc : S2x5000x256.Idx) :=
    funext fun a => Fin.ext (by
      match a with
      | ⟨0, _⟩ => show win0_4.index t (0 : Fin 3) * 2 + 1 * s.val = s.val; rw [e0]; omega
      | ⟨1, _⟩ => show win0_4.index t (1 : Fin 3) * 200 + 1 * r.val = 200 * t.val + r.val; rw [e1]; omega
      | ⟨2, _⟩ => show win0_4.index t (2 : Fin 3) * 256 + 1 * cc.val = cc.val; rw [e2]; omega)
  rw [e]
  exact outAt_apply m c t s r cc

/-- Every entry of the result array is in some point's block: row R of either half is in block R / 200. -/
theorem cover (i : S2x5000x256.Idx) :
    ∃ t : Fin cfg0.N, (cfg0.win 4).flush t = true ∧ i ∈ ((cfg0.win 4).blk t).view.set := by
  have h0 : (i 0).val < 2 := (i 0).isLt
  have h1 : (i 1).val < 5000 := (i 1).isLt
  have h2 : (i 2).val < 256 := (i 2).isLt
  have ht : (i 1).val / 200 < cfg0.N := Nat.lt_of_lt_of_eq (by omega) N_0.symm
  obtain ⟨_, _, _, _, _, _, _, _, _, _, e0, e1, e2, _⟩ := idx_facts ⟨(i 1).val / 200, ht⟩
  refine ⟨⟨(i 1).val / 200, ht⟩, flush0_4 _, ?_⟩
  show i ∈ ((View.whole main_v1).slice (win0_4.rect ⟨(i 1).val / 200, ht⟩)).set
  rw [View.set_slice_whole, Rect.mem_set_unit]
  intro a
  match a with
  | ⟨0, _⟩ =>
    show win0_4.index ⟨(i 1).val / 200, ht⟩ (0 : Fin 3) * 2 ≤ (i 0).val ∧ (i 0).val < win0_4.index ⟨(i 1).val / 200, ht⟩ (0 : Fin 3) * 2 + 2
    rw [e0]; omega
  | ⟨1, _⟩ =>
    show win0_4.index ⟨(i 1).val / 200, ht⟩ (1 : Fin 3) * 200 ≤ (i 1).val ∧ (i 1).val < win0_4.index ⟨(i 1).val / 200, ht⟩ (1 : Fin 3) * 200 + 200
    rw [e1]; show (i 1).val / 200 * 200 ≤ (i 1).val ∧ (i 1).val < (i 1).val / 200 * 200 + 200; omega
  | ⟨2, _⟩ =>
    show win0_4.index ⟨(i 1).val / 200, ht⟩ (2 : Fin 3) * 256 ≤ (i 2).val ∧ (i 2).val < win0_4.index ⟨(i 1).val / 200, ht⟩ (2 : Fin 3) * 256 + 256
    rw [e2]; omega

/-- After the 25 write-backs the result array holds the layer. -/
theorem final_arr (c : Dev nD) : (dats m 0 c).arrAt 4 cfg0.N = G m c :=
  (dats m 0 c).arrAt_eq_of_cover 4 (G m c) (fun t _ => flushed_eq m c t) cover

/-- Entry (s, R, cc) of the result array is the layer at row 5000 s + R, column cc. -/
theorem final_eq (c : Dev nD) (s : Fin 2) (R : Fin 5000) (cc : Fin 256) :
    (dats m 0 c).arrAt 4 cfg0.N (ix3 s R cc)
      = sage (X m c) (A m c) (W m c) (ix2 ⟨5000 * s.val + R.val, by omega⟩ cc) :=
  congrFun (final_arr m c) (ix3 s R cc)

end Array

end Cert.KernelIdeal.SageValue

end
-- ==== Proof.KernelResult.lean ====
/-
  The kernel's result after the closing reshape: the two halves [2,5000,256] laid end to end are the layer
  [10000,256]. Row R comes from half R / 5000, row R % 5000 of that half, and 5000 (R / 5000) + R % 5000 = R.
-/
import proofs.«111192_g72069551227474_cont_9to1c4b_720_10_alg».proof.Proof.KernelValueFinal

set_option maxRecDepth 16384

noncomputable section

namespace Cert.KernelIdeal.SageValue

open Cert.KernelIdeal Cert.KernelIdeal.Gen Cert.KernelIdeal.Sage
open Idealize.ShloMosaic Idealize.ShloMosaic.TcCoe Idealize.ShloMosaic.Tactic Idealize.ShloMosaic.ValueIdx
open Idealize.SL Idealize.SL.Sem
open Idealize.ShloMosaic.Pipeline (Dat)

open Cert.Sage

variable (m : (ℓ : Loc nD τ sig) → Buf (Elt Ideal) ℓ)

/-- The result array, reshaped to [10000,256], is the layer. -/
theorem result_eq (c : Dev nD) :
    (shapeCast S10000x256 ((dats m 0 c).arrAt 4 cfg0.N : Vec Ideal S2x5000x256 .f32) Facts₀.shapeCasts_S2x5000x256_S10000x256 : Vec Ideal S10000x256 .f32)
      = sage (X m c) (A m c) (W m c) := by
  funext i
  obtain ⟨R, cc, rfl⟩ : ∃ (R : Fin 10000) (cc : Fin 256), i = ix2 R cc := ⟨i 0, i 1, eq_ix2 i⟩
  refine (Reshape.reshape_out_apply (F := Ideal) ((dats m 0 c).arrAt 4 cfg0.N : Vec Ideal S2x5000x256 .f32) R cc).trans ?_
  refine (final_eq m c ⟨R.val / 5000, by omega⟩ ⟨R.val % 5000, Nat.mod_lt _ (by omega)⟩ cc).trans ?_
  exact congrArg (fun Q : Fin 10000 => sage (X m c) (A m c) (W m c) (ix2 Q cc))
    (Fin.ext (by show 5000 * (R.val / 5000) + R.val % 5000 = R.val; omega))

end Cert.KernelIdeal.SageValue

end
-- ==== Proof.SageLaw.lean ====
/-
  The algebra behind the GraphSAGE layer. The reference multiplies the joined matrix [x | A x] by W; the layer's
  other association first projects, P = x W2, and then aggregates, A P. Over real numbers the two agree:

      sum_k [x | A x](r,k) W(k,c)  =  sum_{k<256} x(r,k) W1(k,c) + sum_{k<256} (sum_j A(r,j) x(j,k)) W2(k,c)
                                   =  sum_{k<256} x(r,k) W1(k,c) + sum_j A(r,j) (sum_{k<256} x(j,k) W2(k,c)).

  On extended reals multiplication does not distribute over addition at the infinities, so the second step is
  proved for entries that are real numbers: real witnesses are chosen, the coercion is pushed outside the products
  and sums, and the identity is the exchange of two finite sums in the reals.
-/
import proofs.«111192_g72069551227474_cont_9to1c4b_720_10_alg».proof.Proof.Spec
import Mathlib.Algebra.BigOperators.Fin
import Mathlib.Data.EReal.Operations

noncomputable section

namespace Cert.Sage

open Idealize.ShloMosaic Idealize.ShloMosaic.ValueIdx

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (a P) v = a (P v) for a row a, a matrix P and a column v of real numbers, stated on extended reals. -/
theorem sum_mul_reassoc {J K : Type*} [Fintype J] [Fintype K]
    (a : J → EReal) (p : J → K → EReal) (v : K → EReal)
    (ha : ∀ j, ∃ r : ℝ, a j = (r : EReal)) (hp : ∀ j k, ∃ r : ℝ, p j k = (r : EReal))
    (hv : ∀ k, ∃ r : ℝ, v k = (r : EReal)) :
    ∑ k, (∑ j, a j * p j k) * v k = ∑ j, a j * ∑ k, p j k * v k := by
  choose a' ha using ha
  choose p' hp using hp
  choose v' hv using hv
  simp only [ha, hp, hv, ← EReal.coe_mul, ← coe_finset_sum]
  refine congrArg (fun r : ℝ => (r : EReal)) ?_
  simp only [Finset.sum_mul, Finset.mul_sum, mul_assoc]
  exact Finset.sum_comm

/-- A sum over the 512 rows of W is the sum over the rows of W1 plus the sum over the rows of W2. -/
theorem sum_rows_split (f : Fin 512 → EReal) :
    ∑ k : Fin 512, f k = ∑ k : Fin 256, f (wLo k) + ∑ k : Fin 256, f (wHi k) :=
  Fin.sum_univ_add (M := EReal) (a := 256) (b := 256) f

/-- The joined form [x | A x] W, with its sum over the rows of W already split, is the layer at real inputs. -/
theorem sage_eq_concat_form (x : SX.Idx → EReal) (adj : SA.Idx → EReal) (w : SW.Idx → EReal)
    (hx : ∀ i, ∃ r : ℝ, x i = (r : EReal)) (hadj : ∀ i, ∃ r : ℝ, adj i = (r : EReal))
    (hw : ∀ i, ∃ r : ℝ, w i = (r : EReal)) (i : SX.Idx) :
    (∑ k : Fin 256, x (ix2 (i 0) k) * w (ix2 (wLo k) (i 1)))
      + (∑ k : Fin 256, (∑ j : Fin 10000, adj (ix2 (i 0) j) * x (ix2 j k)) * w (ix2 (wHi k) (i 1)))
      = sage x adj w i := by
  unfold sage selfTerm nbrTerm proj
  refine congrArg (HAdd.hAdd _) ?_
  exact sum_mul_reassoc (fun j => adj (ix2 (i 0) j)) (fun j k => x (ix2 j k)) (fun k => w (ix2 (wHi k) (i 1)))
    (fun j => hadj _) (fun j k => hx _) (fun k => hw _)

end Cert.Sage

end
-- ==== Proof.RefIsSage.lean ====
/-
  The reference program, read entry by entry, is the GraphSAGE layer. Its last product contracts the 512 columns
  of the joined matrix [x | A x] with the 512 rows of W. A column below 256 of the joined matrix is a column of x, a
  column 256 + k is column k of A x, and A x is itself a product read entry by entry. Splitting the contraction at 256
  gives x W1 + (A x) W2, and at real inputs that is x W1 + A (x W2), the layer.
-/
import proofs.«111192_g72069551227474_cont_9to1c4b_720_10_alg».proof.Proof.Gen.ReferenceIdeal.Read
import proofs.«111192_g72069551227474_cont_9to1c4b_720_10_alg».proof.Proof.SageLaw

noncomputable section

namespace Cert.Sage.Ref

open Idealize.ShloMosaic Idealize.ShloMosaic.ValueIdx Cert.ReferenceIdeal Cert.ReferenceIdeal.Gen
  Cert.ReferenceIdeal.Read Cert.Sage

/-- The right operand's index in the last product: row k of W, the result's column. -/
theorem ridx_v2_eq (i : S10000x256.Idx) (k : Fin 512) : ridx_main_v2 i k = ix2 k (i 1) :=
  funext fun a => Fin.ext (by match a with | ⟨0, _⟩ => rfl | ⟨1, _⟩ => rfl)

/-- The left operand's index in A x: row r of A, column j. -/
theorem lidx_v0_eq (r : Fin 10000) (k : Fin 256) (j : Fin 10000) :
    lidx_main_v0 (ix2 r k) j = ix2 r j :=
  funext fun a => Fin.ext (by match a with | ⟨0, _⟩ => rfl | ⟨1, _⟩ => rfl)

/-- The right operand's index in A x: row j of x, column k. -/
theorem ridx_v0_eq (r : Fin 10000) (k : Fin 256) (j : Fin 10000) :
    ridx_main_v0 (ix2 r k) j = ix2 j k :=
  funext fun a => Fin.ext (by match a with | ⟨0, _⟩ => rfl | ⟨1, _⟩ => rfl)

/-- A x, read at row r and column k. -/
theorem ax_apply (x : (⟨S10000x256, .f32⟩ : BufTy).Contents (Elt Ideal))
    (adj : (⟨S10000x10000, .f32⟩ : BufTy).Contents (Elt Ideal)) (r : Fin 10000) (k : Fin 256) :
    val_main_v0 (F := Ideal) x adj (ix2 r k) = ∑ j : Fin 10000, adj (ix2 r j) * x (ix2 j k) := by
  rw [val_main_v0_apply]
  refine Finset.sum_congr rfl fun j _ => ?_
  exact congrArg₂ (fun a b : EReal => a * b) (congrArg adj (lidx_v0_eq r k j)) (congrArg x (ridx_v0_eq r k j))

/-- A column below 256 of the joined matrix [x | A x] is that column of x. -/
theorem joined_lo (x : (⟨S10000x256, .f32⟩ : BufTy).Contents (Elt Ideal))
    (adj : (⟨S10000x10000, .f32⟩ : BufTy).Contents (Elt Ideal)) (i : S10000x256.Idx) (k : Fin 256) :
    val_main_v1 (F := Ideal) x adj (lidx_main_v2 i (wLo k)) = x (ix2 (i 0) k) := by
  unfold val_main_v1
  exact concatenate_pair_apply_left (1 : Fin S10000x512.rank) x (val_main_v0 (F := Ideal) x adj) _
    (lidx_main_v2 i (wLo k)) rfl (ix2 (i 0) k)
    (fun b => by match b with | ⟨0, _⟩ => rfl | ⟨1, _⟩ => rfl)

/-- Column 256 + k of the joined matrix [x | A x] is column k of A x. -/
theorem joined_hi (x : (⟨S10000x256, .f32⟩ : BufTy).Contents (Elt Ideal))
    (adj : (⟨S10000x10000, .f32⟩ : BufTy).Contents (Elt Ideal)) (i : S10000x256.Idx) (k : Fin 256) :
    val_main_v1 (F := Ideal) x adj (lidx_main_v2 i (wHi k)) = val_main_v0 (F := Ideal) x adj (ix2 (i 0) k) := by
  unfold val_main_v1
  exact concatenate_pair_apply_right (1 : Fin S10000x512.rank) x (val_main_v0 (F := Ideal) x adj) _
    (lidx_main_v2 i (wHi k)) rfl rfl (ix2 (i 0) k)
    (fun b hb => by match b, hb with | ⟨0, _⟩, _ => rfl | ⟨1, _⟩, hb => exact absurd rfl hb)
    (by show k.val + 256 = 256 + k.val; omega)

/-- The reference's result is the layer, at inputs whose entries are real numbers. -/
theorem ref_is_sage (x : (⟨S10000x256, .f32⟩ : BufTy).Contents (Elt Ideal))
    (adj : (⟨S10000x10000, .f32⟩ : BufTy).Contents (Elt Ideal))
    (w : (⟨S512x256, .f32⟩ : BufTy).Contents (Elt Ideal))
    (hx : ∀ i, ∃ r : ℝ, x i = (r : EReal)) (hadj : ∀ i, ∃ r : ℝ, adj i = (r : EReal))
    (hw : ∀ i, ∃ r : ℝ, w i = (r : EReal)) :
    Cert.ReferenceIdeal.Read.val_main_v2 (F := Ideal) x adj w = Cert.Sage.sage x adj w := by
  funext i
  rw [val_main_v2_apply]
  refine (sum_rows_split _).trans ?_
  refine Eq.trans ?_ (sage_eq_concat_form x adj w hx hadj hw i)
  refine congrArg₂ (fun a b : EReal => a + b) (Finset.sum_congr rfl fun k _ => ?_) (Finset.sum_congr rfl fun k _ => ?_)
  · exact congrArg₂ (fun a b : EReal => a * b) (joined_lo x adj i k) (congrArg w (ridx_v2_eq i (wLo k)))
  · exact congrArg₂ (fun a b : EReal => a * b) ((joined_hi x adj i k).trans (ax_apply x adj (i 0) k))
      (congrArg w (ridx_v2_eq i (wHi k)))

end Cert.Sage.Ref

end
-- ==== Proof.FiniteInputs.lean ====
/-
  The precondition says of each of the three inputs that every entry has absolute value below +infinity. On extended
  reals that leaves exactly the real numbers: an entry that is +infinity or -infinity has absolute value +infinity.
-/
import proofs.«111192_g72069551227474_cont_9to1c4b_720_10_alg».proof.Proof.Gen.Pre_finite_inputs
import Idealize.ShloMosaic.Lib.ReduceAll
import Idealize.ShloMosaic.Lib.ValueIdx
import Idealize.ShloMosaic.PureOps.Ideal.Laws

noncomputable section

namespace Cert.Sage.Finite

open Idealize.ShloMosaic Cert.Pre_finite_inputs Cert.Pre_finite_inputs.Gen

/-- The result of a reduction over all axes has one index. -/
instance : Subsingleton S_.Idx := ⟨fun a b => funext fun d => d.elim0⟩

/-- An extended real whose absolute value max x (-x) is below the f32 word of +infinity is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  simp only [Ideal.cmp] at h'
  induction x using EReal.rec with
  | bot => simp at h'
  | coe r => exact ⟨r, rfl⟩
  | top => simp at h'

/-- From the precondition: every entry of every input is a real number. -/
theorem finite_of_pre (a0 : FVec Ideal Cert.Pre_finite_inputs.S10000x256 .f32)
    (a1 : FVec Ideal Cert.Pre_finite_inputs.S10000x10000 .f32)
    (a2 : FVec Ideal Cert.Pre_finite_inputs.S512x256 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt_inf _ (Host.reduce_andi_all _ _ _ _ _ h0' i)
  · exact real_of_abs_lt_inf _ (Host.reduce_andi_all _ _ _ _ _ h1 i)
  · exact real_of_abs_lt_inf _ (Host.reduce_andi_all _ _ _ _ _ h2 i)

end Cert.Sage.Finite

end
-- ==== Proof.lean ====
/-
  The certificate of the fused GraphSAGE layer kernel against its reference.

  The reference computes  out = [x | A x] W  on the host: the aggregation A x, the join of x and A x along the feature
  axis, and one product with the stacked weight W = [W1; W2].  The kernel computes  out = x W1 + A (x W2):  it forms the
  projection P = x W2 once, at the first grid point, keeps it in a scratch buffer, and at each of 25 grid points stores
  two row bands of  x W1 + A P,  one from each half of the adjacency.  On extended reals the two agree when every entry
  of the inputs is a real number — (A x) W2 = A (x W2) moves a factor across a sum, which fails at an infinity — and the
  precondition says exactly that.

  The three frames: each program runs to the end, faults nowhere and leaves its arguments unchanged. The kernel's two
  (at words and at extended reals) are the run of @main as three segments — the reshape of the adjacency, the kernel
  region, the reshape of the result —, the region's two adjacency windows sharing the one reshaped array at half shares.
  The idealization rewrote nothing, so there is nothing to preserve. The value claim: the kernel's run ends with the
  result at the layer in the kernel's association, the reference's run at the layer in the reference's, and the two
  are one function of real inputs.
-/
import proofs.«111192_g72069551227474_cont_9to1c4b_720_10_alg».proof.Defs
import proofs.«111192_g72069551227474_cont_9to1c4b_720_10_alg».proof.Proof.Gen.Kernel
import proofs.«111192_g72069551227474_cont_9to1c4b_720_10_alg».proof.Proof.Gen.Kernel.Skeleton
import proofs.«111192_g72069551227474_cont_9to1c4b_720_10_alg».proof.Proof.Gen.Kernel.Launch
import proofs.«111192_g72069551227474_cont_9to1c4b_720_10_alg».proof.Proof.Gen.Kernel.Points
import proofs.«111192_g72069551227474_cont_9to1c4b_720_10_alg».proof.Proof.Gen.KernelIdeal
import proofs.«111192_g72069551227474_cont_9to1c4b_720_10_alg».proof.Proof.Gen.KernelIdeal.Skeleton
import proofs.«111192_g72069551227474_cont_9to1c4b_720_10_alg».proof.Proof.Gen.KernelIdeal.Launch
import proofs.«111192_g72069551227474_cont_9to1c4b_720_10_alg».proof.Proof.Gen.KernelIdeal.Points
import proofs.«111192_g72069551227474_cont_9to1c4b_720_10_alg».proof.Proof.Gen.ReferenceIdeal
import proofs.«111192_g72069551227474_cont_9to1c4b_720_10_alg».proof.Proof.Gen.ReferenceIdeal.Run
import proofs.«111192_g72069551227474_cont_9to1c4b_720_10_alg».proof.Proof.Gen.ReferenceIdeal.Read
import proofs.«111192_g72069551227474_cont_9to1c4b_720_10_alg».proof.Proof.Gen.Pre_finite_inputs
import proofs.«111192_g72069551227474_cont_9to1c4b_720_10_alg».proof.Proof.K.Final
import proofs.«111192_g72069551227474_cont_9to1c4b_720_10_alg».proof.Proof.KI.Final
import proofs.«111192_g72069551227474_cont_9to1c4b_720_10_alg».proof.Proof.KernelResult
import proofs.«111192_g72069551227474_cont_9to1c4b_720_10_alg».proof.Proof.RefIsSage
import proofs.«111192_g72069551227474_cont_9to1c4b_720_10_alg».proof.Proof.FiniteInputs
import Idealize.ShloMosaic.Adequacy
import Idealize.ShloMosaic.Init

noncomputable section

namespace Cert.Proof

open Idealize.ShloMosaic Idealize.SL.Sem

/-- The kernel, read at words, runs to the end and leaves its three arguments unchanged. -/
theorem frame_k : Cert.frame_Kernel := fun m ρ _ => Cert.Kernel.Sage.frame (F := Bits) m ρ

/-- The same of the kernel read at extended reals. -/
theorem frame_ki : Cert.frame_KernelIdeal := fun m ρ _ => Cert.KernelIdeal.Sage.frame (F := Ideal) m ρ

/-- The reference is three host operations; its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments, all entries real: the kernel's result is  x W1 + A (x W2)  and the
    reference's is  [x | A x] W,  one function. -/
theorem algebraic : Cert.algebraic_KernelIdeal_ReferenceIdeal := by
  intro m ρ m' ρ' hpre hagree
  refine ⟨fun c => Cert.Sage.sage (Cert.KernelIdeal.SageValue.X m c) (Cert.KernelIdeal.SageValue.A m c) (Cert.KernelIdeal.SageValue.W m c), ?_, ?_⟩
  · exact (θ_run Cert.KernelIdeal.defs _ _).mono
      (fun r h c => ⟨(h c).1.trans (Cert.KernelIdeal.SageValue.result_eq m c), (h c).2⟩)
      (Cert.KernelIdeal.Sage.run_arrays (F := Ideal) m ρ)
  · refine (θ_run Cert.ReferenceIdeal.defs _ _).mono (fun r h c => ⟨?_, (h c).2⟩)
      (Cert.ReferenceIdeal.Value.run (F := Ideal) m' ρ')
    obtain ⟨hx, hadj, hw⟩ := Cert.Sage.Finite.finite_of_pre _ _ _ (hpre c)
    rw [(h c).1, Cert.ReferenceIdeal.Read.val_main_v2_eq, (hagree c).1, (hagree c).2.1, (hagree c).2.2]
    exact Cert.Sage.Ref.ref_is_sage _ _ _ hx hadj hw

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
